-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v41)) (v1 : (c : Dev Cert.KernelIdeal.nD) → Buf (Elt Ideal) ((c.tc : Thread Cert.KernelIdeal.nD Cert.KernelIdeal.τ).loc Cert.KernelIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg5 : FVec F S256x256 .f32) (main_arg6 : FVec F S256 .f32) (main_arg7 : FVec F S256x256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  main_v33

def fn {F : FTy → Type} [FloatOps F] (main_arg0 : FVec F S50000x256 .f32) (main_arg1 : IVec S2x800000 32) (main_arg2 : FVec F S256x256 .f32) (main_arg3 : FVec F S256 .f32) (main_arg4 : FVec F S256x256 .f32) (main_arg5 : FVec F S256x256 .f32) (main_arg6 : FVec F S256 .f32) (main_arg7 : FVec F S256x256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_v13 main_v16
-- ==== Kernel.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S256x512 : Shape := ⟨2, ![256, 512]⟩
abbrev S2000x256 : Shape := ⟨2, ![2000, 256]⟩
abbrev S2000x512 : Shape := ⟨2, ![2000, 512]⟩
abbrev S800000x256 : Shape := ⟨2, ![800000, 256]⟩
abbrev S1x256 : Shape := ⟨2, ![1, 256]⟩
abbrev S2000x1 : Shape := ⟨2, ![2000, 1]⟩

abbrev nBuf : Space → Nat
  | .hbm => 62
  | .vmem => 28
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S256x512, .f32⟩
  | .hbm, ⟨26, _⟩ => ⟨S256x512, .f32⟩
  | .hbm, ⟨27, _⟩ => ⟨S50000x256, .bf16⟩
  | .hbm, ⟨28, _⟩ => ⟨S50000x256, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000x256, .bf16⟩
  | .hbm, ⟨38, _⟩ => ⟨S800000x256, .f32⟩
  | .hbm, ⟨39, _⟩ => ⟨S_, .f32⟩
  | .hbm, ⟨40, _⟩ => ⟨S50000x256, .f32⟩
  | .hbm, ⟨41, _⟩ => ⟨S800000x1, .i32⟩
  | .hbm, ⟨42, _⟩ => ⟨S50000x256, .f32⟩
  | .hbm, ⟨43, _⟩ => ⟨S1x256, .f32⟩
  | .hbm, ⟨44, _⟩ => ⟨S50000x256, .bf16⟩
  | .hbm, ⟨45, _⟩ => ⟨S50000x256, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x256, .bf16⟩
  | .hbm, ⟨55, _⟩ => ⟨S800000x256, .f32⟩
  | .hbm, ⟨56, _⟩ => ⟨S_, .f32⟩
  | .hbm, ⟨57, _⟩ => ⟨S50000x256, .f32⟩
  | .hbm, ⟨58, _⟩ => ⟨S800000x1, .i32⟩
  | .hbm, ⟨59, _⟩ => ⟨S50000x256, .f32⟩
  | .hbm, ⟨60, _⟩ => ⟨S1x256, .f32⟩
  | .hbm, ⟨61, _⟩ => ⟨S50000x256, .f32⟩
  | .local _ .vmem, ⟨0, _⟩ => ⟨S2000x256, .f32⟩
  | .local _ .vmem, ⟨1, _⟩ => ⟨S2000x256, .f32⟩
  | .local _ .vmem, ⟨2, _⟩ => ⟨S256x512, .f32⟩
  | .local _ .vmem, ⟨3, _⟩ => ⟨S2000x256, .bf16⟩
  | .local _ .vmem, ⟨4, _⟩ => ⟨S2000x256, .bf16⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x1, .f32⟩
  | .local _ .vmem, ⟨10, _⟩ => ⟨S2000x1, .f32⟩
  | .local _ .vmem, ⟨11, _⟩ => ⟨S1x256, .f32⟩
  | .local _ .vmem, ⟨12, _⟩ => ⟨S2000x256, .f32⟩
  | .local _ .vmem, ⟨13, _⟩ => ⟨S2000x256, .f32⟩
  | .local _ .vmem, ⟨14, _⟩ => ⟨S256x512, .f32⟩
  | .local _ .vmem, ⟨15, _⟩ => ⟨S2000x256, .bf16⟩
  | .local _ .vmem, ⟨16, _⟩ => ⟨S2000x256, .bf16⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x1, .f32⟩
  | .local _ .vmem, ⟨22, _⟩ => ⟨S2000x1, .f32⟩
  | .local _ .vmem, ⟨23, _⟩ => ⟨S1x256, .f32⟩
  | .local _ .vmem, ⟨24, _⟩ => ⟨S2000x256, .f32⟩
  | .local _ .vmem, ⟨25, _⟩ => ⟨S2000x256, .f32⟩
  | .local _ .vmem, ⟨26, _⟩ => ⟨S2000x256, .f32⟩
  | .local _ .vmem, ⟨27, _⟩ => ⟨S2000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15_0 : Ref sig .tc := ⟨.hbm, 27, rfl⟩
abbrev main_v15_1 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28_0 : Ref sig .tc := ⟨.hbm, 44, rfl⟩
abbrev main_v28_1 : Ref sig .tc := ⟨.hbm, 45, rfl⟩
abbrev main_c_5 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg4_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem5_1 : DmaSem sig := 16
abbrev cc1_sem6_0 : DmaSem sig := 17
abbrev cc1_sem6_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem3_1 : DmaSem sig := 25
abbrev cc2_sem4_0 : DmaSem sig := 26
abbrev cc2_sem4_1 : DmaSem sig := 27

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S256x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2000x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2000x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  concatenates_S256x256_S256x256_S256x512_d1 : Shape.Concatenates [S256x256, S256x256] S256x512 1
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x512_S256x512_0_0 : ∀ a, (![0, 0] : Fin 2 → Nat) a + S256x512.size a ≤ S256x512.size a
  h_S256x512 : 0 < S256x512.numel
  shapeCasts_S256x512_S256x512 : S256x512.ShapeCasts S256x512
  slices_S2000x512_o0_0_S2000x256 : S2000x512.Slices ![0, 0] S2000x256
  packedbf16_S2000x256_S2000x256_0_0 : (Rect.unit (s := S2000x256) ![0, 0] S2000x256.size inb_S2000x256_S2000x256_0_0).PackedRows (EltTy.packing .bf16)
  slices_S2000x512_o0_256_S2000x256 : S2000x512.Slices ![0, 256] S2000x256
  bcast_S_S50000x256 : S_.BroadcastsInDim S50000x256 (![] : Fin 0 → Fin S50000x256.rank)
  shapeCasts_S256_S1x256 : S256.ShapeCasts S1x256
  shapeCasts_S2000x256_S2000x256 : S2000x256.ShapeCasts S2000x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  scatter_S50000_S800000x1_S800000_n_0_0_1_wf : ScatterDims.WF S50000 S800000x1 S800000 [] [0] [0] 1
  dot_S2000x256_S256x512_S2000x512_1_0_0_1_n_n_wf : DotDims.WF S2000x256 S256x512 S2000x512 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .f32 = 32 ∨ (Rect.block (s := S256x512) S256x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .bf16 = 32 ∨ (Rect.block (s := S50000x256) S2000x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S50000x256.size a
  hwx0_3 : ∀ i : grid0.Coords, EltTy.bits .f32 = 32 ∨ (Rect.block (s := S50000x256) S2000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x256.size a ≤ S50000x256.size a
  hwx1_3 : ∀ i : grid1.Coords, EltTy.bits .f32 = 32 ∨ (Rect.block (s := S50000x256) S2000x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x512.size a ≤ S256x512.size a
  hwx1_4 : ∀ i : grid1.Coords, EltTy.bits .f32 = 32 ∨ (Rect.block (s := S256x512) S256x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S50000x256.size a
  hwx1_5 : ∀ i : grid1.Coords, EltTy.bits .bf16 = 32 ∨ (Rect.block (s := S50000x256) S2000x256.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x256.size a ≤ S50000x256.size a
  hwx1_6 : ∀ i : grid1.Coords, EltTy.bits .f32 = 32 ∨ (Rect.block (s := S50000x256) S2000x256.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .f32 = 32 ∨ (Rect.block (s := S50000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x256.size a ≤ S50000x256.size a
  hwx2_3 : ∀ i : grid2.Coords, EltTy.bits .f32 = 32 ∨ (Rect.block (s := S50000x256) S2000x256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x256.size a ≤ S50000x256.size a
  hwx2_4 : ∀ i : grid2.Coords, EltTy.bits .f32 = 32 ∨ (Rect.block (s := S50000x256) S2000x256.size (cc2_transform_4 i) (hinb2_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x256_S256x512_S2000x512_1_0_0_1_n_n : DotDims S2000x256 S256x512 S2000x512 where
  lhsContracting := [1]
  rhsContracting := [0]
  lhsNonContracting := [0]
  rhsNonContracting := [1]
  lhsBatch := []
  rhsBatch := []
  wf := dot_S2000x256_S256x512_S2000x512_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15_0) S2000x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15_1) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15_1) S2000x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v14) S256x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28_0) S2000x256.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v28_1) S2000x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v39) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v40) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v28_1) S2000x256.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v41) S2000x256.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x256 : Shape := ⟨2, ![800000, 256]⟩
abbrev S50000 : Shape := ⟨1, ![50000]⟩
abbrev S50000x1 : Shape := ⟨2, ![50000, 1]⟩
abbrev S1x256 : Shape := ⟨2, ![1, 256]⟩

abbrev nBuf : Space → Nat
  | .hbm => 92
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x256, .f32⟩
  | .hbm, ⟨21, _⟩ => ⟨S_, .f32⟩
  | .hbm, ⟨22, _⟩ => ⟨S50000x256, .f32⟩
  | .hbm, ⟨23, _⟩ => ⟨S800000x1, .i32⟩
  | .hbm, ⟨24, _⟩ => ⟨S50000x256, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x256, .f32⟩
  | .hbm, ⟨36, _⟩ => ⟨S50000x256, .f32⟩
  | .hbm, ⟨37, _⟩ => ⟨S50000x256, .f32⟩
  | .hbm, ⟨38, _⟩ => ⟨S1x256, .f32⟩
  | .hbm, ⟨39, _⟩ => ⟨S50000x256, .f32⟩
  | .hbm, ⟨40, _⟩ => ⟨S50000x256, .f32⟩
  | .hbm, ⟨41, _⟩ => ⟨S50000x256, .f32⟩
  | .hbm, ⟨42, _⟩ => ⟨S50000x256, .f32⟩
  | .hbm, ⟨43, _⟩ => ⟨S_, .f32⟩
  | .hbm, ⟨44, _⟩ => ⟨S50000x256, .f32⟩
  | .hbm, ⟨45, _⟩ => ⟨S50000x256, .i1⟩
  | .hbm, ⟨46, _⟩ => ⟨S_, .f32⟩
  | .hbm, ⟨47, _⟩ => ⟨S50000x256, .f32⟩
  | .hbm, ⟨48, _⟩ => ⟨S50000x256, .f32⟩
  | .hbm, ⟨49, _⟩ => ⟨S50000x256, .f32⟩
  | .hbm, ⟨50, _⟩ => ⟨S1x800000, .i32⟩
  | .hbm, ⟨51, _⟩ => ⟨S800000, .i32⟩
  | .hbm, ⟨52, _⟩ => ⟨S1x800000, .i32⟩
  | .hbm, ⟨53, _⟩ => ⟨S800000, .i32⟩
  | .hbm, ⟨54, _⟩ => ⟨S_, .i32⟩
  | .hbm, ⟨55, _⟩ => ⟨S800000, .i32⟩
  | .hbm, ⟨56, _⟩ => ⟨S800000, .i1⟩
  | .hbm, ⟨57, _⟩ => ⟨S_, .i32⟩
  | .hbm, ⟨58, _⟩ => ⟨S800000, .i32⟩
  | .hbm, ⟨59, _⟩ => ⟨S800000, .i32⟩
  | .hbm, ⟨60, _⟩ => ⟨S800000, .i32⟩
  | .hbm, ⟨61, _⟩ => ⟨S800000x1, .i32⟩
  | .hbm, ⟨62, _⟩ => ⟨S800000x256, .f32⟩
  | .hbm, ⟨63, _⟩ => ⟨S_, .f32⟩
  | .hbm, ⟨64, _⟩ => ⟨S50000x256, .f32⟩
  | .hbm, ⟨65, _⟩ => ⟨S800000x1, .i32⟩
  | .hbm, ⟨66, _⟩ => ⟨S50000x256, .f32⟩
  | .hbm, ⟨67, _⟩ => ⟨S_, .f32⟩
  | .hbm, ⟨68, _⟩ => ⟨S800000, .f32⟩
  | .hbm, ⟨69, _⟩ => ⟨S_, .f32⟩
  | .hbm, ⟨70, _⟩ => ⟨S50000, .f32⟩
  | .hbm, ⟨71, _⟩ => ⟨S800000x1, .i32⟩
  | .hbm, ⟨72, _⟩ => ⟨S50000, .f32⟩
  | .hbm, ⟨73, _⟩ => ⟨S_, .f32⟩
  | .hbm, ⟨74, _⟩ => ⟨S50000, .f32⟩
  | .hbm, ⟨75, _⟩ => ⟨S50000, .f32⟩
  | .hbm, ⟨76, _⟩ => ⟨S50000x1, .f32⟩
  | .hbm, ⟨77, _⟩ => ⟨S50000x256, .f32⟩
  | .hbm, ⟨78, _⟩ => ⟨S50000x256, .f32⟩
  | .hbm, ⟨79, _⟩ => ⟨S50000x256, .f32⟩
  | .hbm, ⟨80, _⟩ => ⟨S1x256, .f32⟩
  | .hbm, ⟨81, _⟩ => ⟨S50000x256, .f32⟩
  | .hbm, ⟨82, _⟩ => ⟨S50000x256, .f32⟩
  | .hbm, ⟨83, _⟩ => ⟨S50000x256, .f32⟩
  | .hbm, ⟨84, _⟩ => ⟨S50000x256, .f32⟩
  | .hbm, ⟨85, _⟩ => ⟨S_, .f32⟩
  | .hbm, ⟨86, _⟩ => ⟨S50000x256, .f32⟩
  | .hbm, ⟨87, _⟩ => ⟨S50000x256, .i1⟩
  | .hbm, ⟨88, _⟩ => ⟨S_, .f32⟩
  | .hbm, ⟨89, _⟩ => ⟨S50000x256, .f32⟩
  | .hbm, ⟨90, _⟩ => ⟨S50000x256, .f32⟩
  | .hbm, ⟨91, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_c_6 : Ref sig .tc := ⟨.hbm, 54, rfl⟩
abbrev main_v38 : Ref sig .tc := ⟨.hbm, 55, rfl⟩
abbrev main_v39 : Ref sig .tc := ⟨.hbm, 56, rfl⟩
abbrev main_c_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_8 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_9 : Ref sig .tc := ⟨.hbm, 67, rfl⟩
abbrev main_v48 : Ref sig .tc := ⟨.hbm, 68, rfl⟩
abbrev main_cst_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_11 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_12 : Ref sig .tc := ⟨.hbm, 85, rfl⟩
abbrev main_v63 : Ref sig .tc := ⟨.hbm, 86, rfl⟩
abbrev main_v64 : Ref sig .tc := ⟨.hbm, 87, rfl⟩
abbrev main_cst_13 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  scatter_S50000_S800000x1_S800000_n_0_0_1_wf : ScatterDims.WF S50000 S800000x1 S800000 [] [0] [0] 1
  dot_S50000x256_S256x256_S50000x256_1_0_0_1_n_n_wf : DotDims.WF S50000x256 S256x256 S50000x256 [1] [0] [0] [1] [] []

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.KernelRun.lean ====
/-
  The kernel program's run with its result NAMED: every weakly fair execution of @main ends with the result buffer
  holding the last boundary's contents of that buffer (the fold of the three host stretches and the three regions'
  write-backs from the launch memory), and with the arguments as launched.
-/
import proofs.«171537_j82300163326282_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the launch over the six segments (three host stretches, three regions); the last thread state holds every
    unscoped buffer at the last boundary's contents, read against the final state: the result buffer there, each
    argument walked back through the fold to the launch memory. -/
theorem run_main : θ_run defs (onTc (τ := τ) (main (F := F))) ⟨m, fun _ => 0, ρ⟩ (fun r => ∀ c : Dev nD,
      r.2.mem ((c.tc : Thread nD τ).loc main_v41) = W6 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v41 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)

end Cert.KernelIdeal.KRun

end
-- ==== Proof.Spec.lean ====
/-
  The functions a two-layer mean-aggregating graph network is assembled from, index by index, on the extended reals.

  A node array is [50000, 256]; a weight pair is laid side by side as one [256, 512] array.
  * projL h Wc, projR h Wc: row n, column c of h times the left half (columns 0..255) and of h times the right half
    (columns 256..511) of Wc:  sum over k of h[n,k] * Wc[k,c]  and  sum over k of h[n,k] * Wc[k,256+c].
  * act t: the leaky rectifier with slope one half, written with the comparison and the selection the programs use:
    t where t >= 0, and one half of t elsewhere.
  * epi agg inv b r: the layer's epilogue  act (agg[n,c] * inv[n,0] + b[0,c] + r[n,c]).
-/
import Idealize.ShloMosaic.PureOps.Ideal
import Idealize.ShloMosaic.PureOps.Ideal.Laws
import Idealize.ShloMosaic.Lib.ValueIdx

noncomputable section

open scoped BigOperators

namespace Cert.Sage

open Idealize.ShloMosaic Idealize.ShloMosaic.ValueIdx

abbrev SNxD : Shape := ⟨2, ![50000, 256]⟩
abbrev SNx1 : Shape := ⟨2, ![50000, 1]⟩
abbrev S1xD : Shape := ⟨2, ![1, 256]⟩
abbrev SDx2D : Shape := ⟨2, ![256, 512]⟩

/-- Column c of the left half of a [256, 512] array's row k. -/
abbrev colL (c : Fin 256) : Fin 512 := ⟨c.val, by have := c.isLt; omega⟩
/-- Column c of the right half. -/
abbrev colR (c : Fin 256) : Fin 512 := ⟨256 + c.val, by have := c.isLt; omega⟩

/-- h times the left half of Wc. -/
def projL (h : SNxD.Idx → EReal) (Wc : SDx2D.Idx → EReal) : SNxD.Idx → EReal :=
  fun i => ∑ k : Fin 256, h (ix2 (i 0) k) * Wc (ix2 k (colL (i 1)))

/-- h times the right half of Wc. -/
def projR (h : SNxD.Idx → EReal) (Wc : SDx2D.Idx → EReal) : SNxD.Idx → EReal :=
  fun i => ∑ k : Fin 256, h (ix2 (i 0) k) * Wc (ix2 k (colR (i 1)))

/-- The leaky rectifier with slope one half. -/
def act (t : EReal) : EReal :=
  Scalar.select (Ideal.cmp .oge t (Ideal.ofBits .f32 0x00000000#32)) t (Ideal.ofBits .f32 0x3F000000#32 * t)

/-- The layer's epilogue: the aggregate scaled row by row, plus the bias row, plus the root term, rectified. -/
def epi (agg : SNxD.Idx → EReal) (inv : SNx1.Idx → EReal) (b : S1xD.Idx → EReal) (r : SNxD.Idx → EReal) :
    SNxD.Idx → EReal :=
  fun i => act (agg i * inv (ix2 (i 0) (0 : Fin 1)) + b (ix2 (0 : Fin 1) (i 1)) + r i)

theorem projL_apply (h : SNxD.Idx → EReal) (Wc : SDx2D.Idx → EReal) (n : Fin 50000) (c : Fin 256) :
    projL h Wc (ix2 n c) = ∑ k : Fin 256, h (ix2 n k) * Wc (ix2 k (colL c)) := rfl

theorem projR_apply (h : SNxD.Idx → EReal) (Wc : SDx2D.Idx → EReal) (n : Fin 50000) (c : Fin 256) :
    projR h Wc (ix2 n c) = ∑ k : Fin 256, h (ix2 n k) * Wc (ix2 k (colR c)) := rfl

theorem epi_apply (agg : SNxD.Idx → EReal) (inv : SNx1.Idx → EReal) (b : S1xD.Idx → EReal) (r : SNxD.Idx → EReal)
    (n : Fin 50000) (c : Fin 256) :
    epi agg inv b r (ix2 n c)
      = act (agg (ix2 n c) * inv (ix2 n (0 : Fin 1)) + b (ix2 (0 : Fin 1) c) + r (ix2 n c)) := rfl

end Cert.Sage

end
-- ==== Proof.KSpec.lean ====
/-
  The kernel's graph data and one layer of it as a function of whole arrays, at the ideal values.

  From the edge list ei : [2, 800000]: the destination column dcol and the source column scol (a negative source wraps by
  50000) as [800000, 1] index columns; cnt, the number of edges landing on each node (an accumulating scatter of ones into
  zeros); inv = 1 / max (cnt, 1) as a column [50000, 1].  A weight pair side by side is wcat Wl Wr : [256, 512]; a bias is
  a row brow b : [1, 256].  aggK z: the rows of z gathered at the sources and summed per destination.

  One layer:  KL h ei Wl b Wr = epi (aggK (h * Wl)) inv b (h * Wr), the projections taken BEFORE the aggregation.
-/
import proofs.«171537_j82300163326282_2_alg».proof.Proof.Gen.KernelIdeal
import proofs.«171537_j82300163326282_2_alg».proof.Proof.Spec

noncomputable section

namespace Cert.KernelIdeal.KSpec

open Cert.KernelIdeal Cert.KernelIdeal.Facts₀ Cert.Sage Idealize.ShloMosaic Idealize.ShloMosaic.ValueIdx

/-- The source node of every edge (row 0 of the edge list). -/
def srcv (ei : IVec S2x800000 32) : IVec S800000 32 :=
  shapeCast S800000 (extractStridedSlice S1x800000 ![0, 0] ei slices_S2x800000_S1x800000_0_0) shapeCasts_S1x800000_S800000

/-- The destination node of every edge (row 1 of the edge list). -/
def dstv (ei : IVec S2x800000 32) : IVec S800000 32 :=
  shapeCast S800000 (extractStridedSlice S1x800000 ![1, 0] ei slices_S2x800000_S1x800000_1_0) shapeCasts_S1x800000_S800000

/-- The destinations as an index column. -/
def dcol (ei : IVec S2x800000 32) : IVec S800000x1 32 :=
  broadcastInDim S800000x1 ![0] bcast_S800000_S800000x1_0 (dstv ei)

/-- The sources, a negative one wrapped by 50000, as an index column. -/
def scol (ei : IVec S2x800000 32) : IVec S800000x1 32 :=
  broadcastInDim S800000x1 ![0] bcast_S800000_S800000x1_0
    (select (cmpi .slt (srcv ei) (broadcastInDim S800000 ![] bcast_S_S800000 (constantI S_ 32 0#32)))
      (addi (srcv ei) (broadcastInDim S800000 ![] bcast_S_S800000 (constantI S_ 32 50000#32))) (srcv ei))

/-- The number of edges landing on each node. -/
def cnt (ei : IVec S2x800000 32) : FVec Ideal S50000 .f32 :=
  Host.scatterAdd (F := Ideal) scatter_S50000_S800000x1_S800000_n_0_0_1
    (broadcastInDim S50000 ![] bcast_S_S50000 (constant (F := Ideal) S_ .f32 0x00000000#32)) (dcol ei)
    (broadcastInDim S800000 ![] bcast_S_S800000 (constant (F := Ideal) S_ .f32 0x3F800000#32))

/-- One over the count raised to at least one, as a column. -/
def inv (ei : IVec S2x800000 32) : FVec Ideal S50000x1 .f32 :=
  shapeCast S50000x1
    (Host.divf (F := Ideal) (broadcastInDim S50000 ![] bcast_S_S50000 (constant (F := Ideal) S_ .f32 0x3F800000#32))
      (maximumf (cnt ei) (broadcastInDim S50000 ![] bcast_S_S50000 (constant (F := Ideal) S_ .f32 0x3F800000#32))))
    shapeCasts_S50000_S50000x1

/-- A weight pair side by side. -/
def wcat (Wl Wr : FVec Ideal S256x256 .f32) : FVec Ideal S256x512 .f32 :=
  concatenate S256x512 1 [⟨S256x256, Wl⟩, ⟨S256x256, Wr⟩] concatenates_S256x256_S256x256_S256x512_d1

/-- A bias as a row. -/
def brow (b : FVec Ideal S256 .f32) : FVec Ideal S1x256 .f32 := shapeCast S1x256 b shapeCasts_S256_S1x256

/-- The rows of z gathered at the sources and summed per destination. -/
def aggK (ei : IVec S2x800000 32) (z : FVec Ideal S50000x256 .bf16) : FVec Ideal S50000x256 .f32 :=
  Host.scatterAdd (F := Ideal) scatter_S50000x256_S800000x1_S800000x256_1_0_0_1
    (broadcastInDim S50000x256 ![] bcast_S_S50000x256 (constant (F := Ideal) S_ .f32 0x00000000#32)) (dcol ei)
    (extf .f32 (Host.gather gather_S50000x256_S800000x1_S800000x256_1_0_n_n_0_1_1256 z (scol ei)) bitsLt_bf16_f32)

/-- One layer, the projections taken before the aggregation. -/
def KL (h : FVec Ideal S50000x256 .f32) (ei : IVec S2x800000 32) (Wl : FVec Ideal S256x256 .f32) (b : FVec Ideal S256 .f32)
    (Wr : FVec Ideal S256x256 .f32) : FVec Ideal S50000x256 .f32 :=
  epi (aggK ei (projL h (wcat Wl Wr))) (inv ei) (brow b) (projR h (wcat Wl Wr))

end Cert.KernelIdeal.KSpec

end
-- ==== Proof.Folds.lean ====
/-
  The host stretches of the kernel program read back: the buffers each stretch writes, as functions of the contents it
  starts from (any contents W), and the buffers it leaves alone.
  * the first stretch makes the edge sources and destinations, the per-node scale inv, and the two weight pairs;
  * the second and the third each gather a projected array's rows at the sources and sum them per destination (aggV), and
    lay a bias out as a row.
-/
import proofs.«171537_j82300163326282_2_alg».proof.Proof.Gen.KernelIdeal.Frame
import proofs.«171537_j82300163326282_2_alg».proof.Proof.KSpec

noncomputable section

namespace Cert.KernelIdeal.Folds

open Cert.KernelIdeal Cert.KernelIdeal.Gen Cert.Sage
open Idealize.ShloMosaic Idealize.ShloMosaic.TcCoe Idealize.ShloMosaic.StableHlo Idealize.SL.Sem

variable (W : Valuation τ sig (Elt Ideal))

/-- The aggregation over explicit source and destination vectors. -/
def aggV (s d : IVec S800000 32) (z : FVec Ideal S50000x256 .bf16) : FVec Ideal S50000x256 .f32 :=
  Host.scatterAdd (F := Ideal) scatter_S50000x256_S800000x1_S800000x256_1_0_0_1
    (broadcastInDim S50000x256 ![] bcast_S_S50000x256 (constant (F := Ideal) S_ .f32 0x00000000#32))
    (broadcastInDim S800000x1 ![0] bcast_S800000_S800000x1_0 d)
    (extf .f32 (Host.gather gather_S50000x256_S800000x1_S800000x256_1_0_n_n_0_1_1256 z
      (broadcastInDim S800000x1 ![0] bcast_S800000_S800000x1_0
        (select (cmpi .slt s (broadcastInDim S800000 ![] bcast_S_S800000 (constantI S_ 32 0#32)))
          (addi s (broadcastInDim S800000 ![] bcast_S_S800000 (constantI S_ 32 50000#32))) s))) bitsLt_bf16_f32)

theorem aggK_eq (ei : IVec S2x800000 32) (z : FVec Ideal S50000x256 .bf16) :
    KSpec.aggK ei z = aggV (KSpec.srcv ei) (KSpec.dstv ei) z := rfl

/-! ## The first stretch -/

theorem s0_v1 : StableHlo.after (hostOps0 (F := Ideal)) W (Proc.devRef .tc main_v1) = KSpec.srcv (W (Proc.devRef .tc main_arg1)) := by
  after_results; rfl
theorem s0_v3 : StableHlo.after (hostOps0 (F := Ideal)) W (Proc.devRef .tc main_v3) = KSpec.dstv (W (Proc.devRef .tc main_arg1)) := by
  after_results; rfl
theorem s0_v12 : StableHlo.after (hostOps0 (F := Ideal)) W (Proc.devRef .tc main_v12) = KSpec.inv (W (Proc.devRef .tc main_arg1)) := by
  after_results; rfl
theorem s0_v13 : StableHlo.after (hostOps0 (F := Ideal)) W (Proc.devRef .tc main_v13)
    = KSpec.wcat (W (Proc.devRef .tc main_arg2)) (W (Proc.devRef .tc main_arg4)) := by
  after_results; rfl
theorem s0_v14 : StableHlo.after (hostOps0 (F := Ideal)) W (Proc.devRef .tc main_v14)
    = KSpec.wcat (W (Proc.devRef .tc main_arg5)) (W (Proc.devRef .tc main_arg7)) := by
  after_results; rfl
theorem s0_arg0 : StableHlo.after (hostOps0 (F := Ideal)) W (Proc.devRef .tc main_arg0) = W (Proc.devRef .tc main_arg0) := by
  after_results
theorem s0_arg3 : StableHlo.after (hostOps0 (F := Ideal)) W (Proc.devRef .tc main_arg3) = W (Proc.devRef .tc main_arg3) := by
  after_results
theorem s0_arg6 : StableHlo.after (hostOps0 (F := Ideal)) W (Proc.devRef .tc main_arg6) = W (Proc.devRef .tc main_arg6) := by
  after_results

/-! ## The second stretch -/

theorem s1_v26 : StableHlo.after (hostOps1 (F := Ideal)) W (Proc.devRef .tc main_v26)
    = aggV (W (Proc.devRef .tc main_v1)) (W (Proc.devRef .tc main_v3)) (W (Proc.devRef .tc main_v15_0)) := by
  after_results; rfl
theorem s1_v27 : StableHlo.after (hostOps1 (F := Ideal)) W (Proc.devRef .tc main_v27) = KSpec.brow (W (Proc.devRef .tc main_arg3)) := by
  after_results; rfl
theorem s1_v12 : StableHlo.after (hostOps1 (F := Ideal)) W (Proc.devRef .tc main_v12) = W (Proc.devRef .tc main_v12) := by
  after_results
theorem s1_v14 : StableHlo.after (hostOps1 (F := Ideal)) W (Proc.devRef .tc main_v14) = W (Proc.devRef .tc main_v14) := by
  after_results
theorem s1_v15_1 : StableHlo.after (hostOps1 (F := Ideal)) W (Proc.devRef .tc main_v15_1) = W (Proc.devRef .tc main_v15_1) := by
  after_results
theorem s1_v1 : StableHlo.after (hostOps1 (F := Ideal)) W (Proc.devRef .tc main_v1) = W (Proc.devRef .tc main_v1) := by
  after_results
theorem s1_v3 : StableHlo.after (hostOps1 (F := Ideal)) W (Proc.devRef .tc main_v3) = W (Proc.devRef .tc main_v3) := by
  after_results
theorem s1_arg6 : StableHlo.after (hostOps1 (F := Ideal)) W (Proc.devRef .tc main_arg6) = W (Proc.devRef .tc main_arg6) := by
  after_results

/-! ## The third stretch -/

theorem s2_v39 : StableHlo.after (hostOps2 (F := Ideal)) W (Proc.devRef .tc main_v39)
    = aggV (W (Proc.devRef .tc main_v1)) (W (Proc.devRef .tc main_v3)) (W (Proc.devRef .tc main_v28_0)) := by
  after_results; rfl
theorem s2_v40 : StableHlo.after (hostOps2 (F := Ideal)) W (Proc.devRef .tc main_v40) = KSpec.brow (W (Proc.devRef .tc main_arg6)) := by
  after_results; rfl
theorem s2_v12 : StableHlo.after (hostOps2 (F := Ideal)) W (Proc.devRef .tc main_v12) = W (Proc.devRef .tc main_v12) := by
  after_results
theorem s2_v28_1 : StableHlo.after (hostOps2 (F := Ideal)) W (Proc.devRef .tc main_v28_1) = W (Proc.devRef .tc main_v28_1) := by
  after_results

end Cert.KernelIdeal.Folds

end
-- ==== Proof.KernelValue.lean ====
/-
  The kernel program's result as a function of the launch memory: two layers KL, the second taken at the first one's
  output.  The contents at each boundary of @main are walked back: a region's output arrays hold what the region leaves
  (the projections and the epilogue of the arrays it was entered with), its input arrays and every other buffer are as
  entered; a host stretch writes the aggregate and the bias row and leaves the rest.
-/
import proofs.«171537_j82300163326282_2_alg».proof.Proof.Gen.KernelIdeal.Frame
import proofs.«171537_j82300163326282_2_alg».proof.Proof.KSpec
import proofs.«171537_j82300163326282_2_alg».proof.Proof.Folds

set_option maxRecDepth 16384

noncomputable section

namespace Cert.KernelIdeal.KValue

open Cert.KernelIdeal Cert.KernelIdeal.Gen Cert.KernelIdeal.Folds Cert.Sage
open Idealize.ShloMosaic Idealize.ShloMosaic.TcCoe Idealize.ShloMosaic.StableHlo Idealize.SL.Sem
open Idealize.ShloMosaic.Pipeline (Dat)

variable (m : (ℓ : Loc nD τ sig) → Buf (Elt Ideal) ℓ) (ρ : Dev nD → PrngReg) (c : Dev nD)

/-- What the three regions leave in their output arrays, for any contents they are entered with. -/
structure RegionFacts : Prop where
  f02 : ∀ (V : (c : Dev nD) → (b : Ref sig .tc) → Buf (Elt Ideal) ((c : Thread nD τ).loc b)) (c : Dev nD),
    (dat0 (F := Ideal) V c).arrAt 2 cfg0.N = projL (V c main_arg0) (V c main_v13)
  f03 : ∀ (V : (c : Dev nD) → (b : Ref sig .tc) → Buf (Elt Ideal) ((c : Thread nD τ).loc b)) (c : Dev nD),
    (dat0 (F := Ideal) V c).arrAt 3 cfg0.N = projR (V c main_arg0) (V c main_v13)
  f15 : ∀ (V : (c : Dev nD) → (b : Ref sig .tc) → Buf (Elt Ideal) ((c : Thread nD τ).loc b)) (c : Dev nD),
    (dat1 (F := Ideal) V c).arrAt 5 cfg1.N
      = projL (epi (V c main_v26) (V c main_v12) (V c main_v27) (V c main_v15_1)) (V c main_v14)
  f16 : ∀ (V : (c : Dev nD) → (b : Ref sig .tc) → Buf (Elt Ideal) ((c : Thread nD τ).loc b)) (c : Dev nD),
    (dat1 (F := Ideal) V c).arrAt 6 cfg1.N
      = projR (epi (V c main_v26) (V c main_v12) (V c main_v27) (V c main_v15_1)) (V c main_v14)
  f24 : ∀ (V : (c : Dev nD) → (b : Ref sig .tc) → Buf (Elt Ideal) ((c : Thread nD τ).loc b)) (c : Dev nD),
    (dat2 (F := Ideal) V c).arrAt 4 cfg2.N = epi (V c main_v39) (V c main_v12) (V c main_v40) (V c main_v28_1)

/-! ## Region 0's entry -/

theorem W1_arg0 : W1 m ρ c (Proc.devRef .tc main_arg0) = m ((c : Thread nD τ).loc main_arg0) := s0_arg0 (W0 m ρ c)
theorem W1_arg3 : W1 m ρ c (Proc.devRef .tc main_arg3) = m ((c : Thread nD τ).loc main_arg3) := s0_arg3 (W0 m ρ c)
theorem W1_arg6 : W1 m ρ c (Proc.devRef .tc main_arg6) = m ((c : Thread nD τ).loc main_arg6) := s0_arg6 (W0 m ρ c)
theorem W1_v1 : W1 m ρ c (Proc.devRef .tc main_v1) = KSpec.srcv (m ((c : Thread nD τ).loc main_arg1)) := s0_v1 (W0 m ρ c)
theorem W1_v3 : W1 m ρ c (Proc.devRef .tc main_v3) = KSpec.dstv (m ((c : Thread nD τ).loc main_arg1)) := s0_v3 (W0 m ρ c)
theorem W1_v12 : W1 m ρ c (Proc.devRef .tc main_v12) = KSpec.inv (m ((c : Thread nD τ).loc main_arg1)) := s0_v12 (W0 m ρ c)
theorem W1_v13 : W1 m ρ c (Proc.devRef .tc main_v13)
    = KSpec.wcat (m ((c : Thread nD τ).loc main_arg2)) (m ((c : Thread nD τ).loc main_arg4)) := s0_v13 (W0 m ρ c)
theorem W1_v14 : W1 m ρ c (Proc.devRef .tc main_v14)
    = KSpec.wcat (m ((c : Thread nD τ).loc main_arg5)) (m ((c : Thread nD τ).loc main_arg7)) := s0_v14 (W0 m ρ c)

/-! ## Region 0's exit -/

theorem W2_v1 : W2 m ρ c (Proc.devRef .tc main_v1) = KSpec.srcv (m ((c : Thread nD τ).loc main_arg1)) :=
  (W2_of_ne m ρ c main_v1 (by decide)).trans (W1_v1 m ρ c)
theorem W2_v3 : W2 m ρ c (Proc.devRef .tc main_v3) = KSpec.dstv (m ((c : Thread nD τ).loc main_arg1)) :=
  (W2_of_ne m ρ c main_v3 (by decide)).trans (W1_v3 m ρ c)
theorem W2_v12 : W2 m ρ c (Proc.devRef .tc main_v12) = KSpec.inv (m ((c : Thread nD τ).loc main_arg1)) :=
  (W2_of_ne m ρ c main_v12 (by decide)).trans (W1_v12 m ρ c)
theorem W2_v14 : W2 m ρ c (Proc.devRef .tc main_v14)
    = KSpec.wcat (m ((c : Thread nD τ).loc main_arg5)) (m ((c : Thread nD τ).loc main_arg7)) :=
  (W2_of_ne m ρ c main_v14 (by decide)).trans (W1_v14 m ρ c)
theorem W2_arg3 : W2 m ρ c (Proc.devRef .tc main_arg3) = m ((c : Thread nD τ).loc main_arg3) :=
  (W2_of_ne m ρ c main_arg3 (by decide)).trans (W1_arg3 m ρ c)
theorem W2_arg6 : W2 m ρ c (Proc.devRef .tc main_arg6) = m ((c : Thread nD τ).loc main_arg6) :=
  (W2_of_ne m ρ c main_arg6 (by decide)).trans (W1_arg6 m ρ c)

variable (RF : RegionFacts)
include RF

theorem W2_v15_0 : W2 m ρ c (Proc.devRef .tc main_v15_0)
    = projL (m ((c : Thread nD τ).loc main_arg0))
        (KSpec.wcat (m ((c : Thread nD τ).loc main_arg2)) (m ((c : Thread nD τ).loc main_arg4))) := by
  refine (W2_arr m ρ c 2).trans ((RF.f02 (V1 m ρ) c).trans ?_)
  show projL (W1 m ρ c (Proc.devRef .tc main_arg0)) (W1 m ρ c (Proc.devRef .tc main_v13)) = _
  rw [W1_arg0, W1_v13]
theorem W2_v15_1 : W2 m ρ c (Proc.devRef .tc main_v15_1)
    = projR (m ((c : Thread nD τ).loc main_arg0))
        (KSpec.wcat (m ((c : Thread nD τ).loc main_arg2)) (m ((c : Thread nD τ).loc main_arg4))) := by
  refine (W2_arr m ρ c 3).trans ((RF.f03 (V1 m ρ) c).trans ?_)
  show projR (W1 m ρ c (Proc.devRef .tc main_arg0)) (W1 m ρ c (Proc.devRef .tc main_v13)) = _
  rw [W1_arg0, W1_v13]

/-! ## Region 1's entry -/

theorem W3_v26 : W3 m ρ c (Proc.devRef .tc main_v26) = KSpec.aggK (m ((c : Thread nD τ).loc main_arg1)) (projL (m ((c : Thread nD τ).loc main_arg0)) (KSpec.wcat (m ((c : Thread nD τ).loc main_arg2)) (m ((c : Thread nD τ).loc main_arg4)))) := by
  refine (s1_v26 (W2 m ρ c)).trans ?_
  rw [W2_v1, W2_v3, W2_v15_0 m ρ c RF]
  rfl
theorem W3_v27 : W3 m ρ c (Proc.devRef .tc main_v27) = KSpec.brow (m ((c : Thread nD τ).loc main_arg3)) := by
  refine (s1_v27 (W2 m ρ c)).trans ?_
  rw [W2_arg3]
theorem W3_v12 : W3 m ρ c (Proc.devRef .tc main_v12) = KSpec.inv (m ((c : Thread nD τ).loc main_arg1)) :=
  (s1_v12 (W2 m ρ c)).trans (W2_v12 m ρ c)
theorem W3_v14 : W3 m ρ c (Proc.devRef .tc main_v14) = KSpec.wcat (m ((c : Thread nD τ).loc main_arg5)) (m ((c : Thread nD τ).loc main_arg7)) :=
  (s1_v14 (W2 m ρ c)).trans (W2_v14 m ρ c)
theorem W3_v15_1 : W3 m ρ c (Proc.devRef .tc main_v15_1) = projR (m ((c : Thread nD τ).loc main_arg0)) (KSpec.wcat (m ((c : Thread nD τ).loc main_arg2)) (m ((c : Thread nD τ).loc main_arg4))) :=
  (s1_v15_1 (W2 m ρ c)).trans (W2_v15_1 m ρ c RF)
theorem W3_v1 : W3 m ρ c (Proc.devRef .tc main_v1) = KSpec.srcv (m ((c : Thread nD τ).loc main_arg1)) := (s1_v1 (W2 m ρ c)).trans (W2_v1 m ρ c)
theorem W3_v3 : W3 m ρ c (Proc.devRef .tc main_v3) = KSpec.dstv (m ((c : Thread nD τ).loc main_arg1)) := (s1_v3 (W2 m ρ c)).trans (W2_v3 m ρ c)
theorem W3_arg6 : W3 m ρ c (Proc.devRef .tc main_arg6) = (m ((c : Thread nD τ).loc main_arg6)) := (s1_arg6 (W2 m ρ c)).trans (W2_arg6 m ρ c)

/-! ## Region 1's exit -/

theorem W4_v28_0 : W4 m ρ c (Proc.devRef .tc main_v28_0)
    = projL (KSpec.KL (m ((c : Thread nD τ).loc main_arg0)) (m ((c : Thread nD τ).loc main_arg1)) (m ((c : Thread nD τ).loc main_arg2)) (m ((c : Thread nD τ).loc main_arg3)) (m ((c : Thread nD τ).loc main_arg4))) (KSpec.wcat (m ((c : Thread nD τ).loc main_arg5)) (m ((c : Thread nD τ).loc main_arg7))) := by
  refine (W4_arr m ρ c 5).trans ((RF.f15 (V3 m ρ) c).trans ?_)
  show projL (epi (W3 m ρ c (Proc.devRef .tc main_v26)) (W3 m ρ c (Proc.devRef .tc main_v12))
    (W3 m ρ c (Proc.devRef .tc main_v27)) (W3 m ρ c (Proc.devRef .tc main_v15_1))) (W3 m ρ c (Proc.devRef .tc main_v14)) = _
  rw [W3_v26 m ρ c RF, W3_v12 m ρ c RF, W3_v27 m ρ c RF, W3_v15_1 m ρ c RF, W3_v14 m ρ c RF]
  rfl
theorem W4_v28_1 : W4 m ρ c (Proc.devRef .tc main_v28_1)
    = projR (KSpec.KL (m ((c : Thread nD τ).loc main_arg0)) (m ((c : Thread nD τ).loc main_arg1)) (m ((c : Thread nD τ).loc main_arg2)) (m ((c : Thread nD τ).loc main_arg3)) (m ((c : Thread nD τ).loc main_arg4))) (KSpec.wcat (m ((c : Thread nD τ).loc main_arg5)) (m ((c : Thread nD τ).loc main_arg7))) := by
  refine (W4_arr m ρ c 6).trans ((RF.f16 (V3 m ρ) c).trans ?_)
  show projR (epi (W3 m ρ c (Proc.devRef .tc main_v26)) (W3 m ρ c (Proc.devRef .tc main_v12))
    (W3 m ρ c (Proc.devRef .tc main_v27)) (W3 m ρ c (Proc.devRef .tc main_v15_1))) (W3 m ρ c (Proc.devRef .tc main_v14)) = _
  rw [W3_v26 m ρ c RF, W3_v12 m ρ c RF, W3_v27 m ρ c RF, W3_v15_1 m ρ c RF, W3_v14 m ρ c RF]
  rfl
/-- The scale column is an input of region 1: the region leaves it as entered. -/
theorem W4_v12 : W4 m ρ c (Proc.devRef .tc main_v12) = KSpec.inv (m ((c : Thread nD τ).loc main_arg1)) :=
  (W4_arr m ρ c 1).trans (((dat1 (V3 m ρ) c).arrAt_in 1 rfl cfg1.N).trans ((A_eq1 (V3 m ρ) c 1).trans (W3_v12 m ρ c RF)))
theorem W4_v1 : W4 m ρ c (Proc.devRef .tc main_v1) = KSpec.srcv (m ((c : Thread nD τ).loc main_arg1)) :=
  (W4_of_ne m ρ c main_v1 (by decide)).trans (W3_v1 m ρ c RF)
theorem W4_v3 : W4 m ρ c (Proc.devRef .tc main_v3) = KSpec.dstv (m ((c : Thread nD τ).loc main_arg1)) :=
  (W4_of_ne m ρ c main_v3 (by decide)).trans (W3_v3 m ρ c RF)
theorem W4_arg6 : W4 m ρ c (Proc.devRef .tc main_arg6) = (m ((c : Thread nD τ).loc main_arg6)) :=
  (W4_of_ne m ρ c main_arg6 (by decide)).trans (W3_arg6 m ρ c RF)

/-! ## Region 2's entry -/

theorem W5_v39 : W5 m ρ c (Proc.devRef .tc main_v39)
    = KSpec.aggK (m ((c : Thread nD τ).loc main_arg1)) (projL (KSpec.KL (m ((c : Thread nD τ).loc main_arg0)) (m ((c : Thread nD τ).loc main_arg1)) (m ((c : Thread nD τ).loc main_arg2)) (m ((c : Thread nD τ).loc main_arg3)) (m ((c : Thread nD τ).loc main_arg4))) (KSpec.wcat (m ((c : Thread nD τ).loc main_arg5)) (m ((c : Thread nD τ).loc main_arg7)))) := by
  refine (s2_v39 (W4 m ρ c)).trans ?_
  rw [W4_v1 m ρ c RF, W4_v3 m ρ c RF, W4_v28_0 m ρ c RF]
  rfl
theorem W5_v40 : W5 m ρ c (Proc.devRef .tc main_v40) = KSpec.brow (m ((c : Thread nD τ).loc main_arg6)) := by
  refine (s2_v40 (W4 m ρ c)).trans ?_
  rw [W4_arg6 m ρ c RF]
theorem W5_v12 : W5 m ρ c (Proc.devRef .tc main_v12) = KSpec.inv (m ((c : Thread nD τ).loc main_arg1)) :=
  (s2_v12 (W4 m ρ c)).trans (W4_v12 m ρ c RF)
theorem W5_v28_1 : W5 m ρ c (Proc.devRef .tc main_v28_1)
    = projR (KSpec.KL (m ((c : Thread nD τ).loc main_arg0)) (m ((c : Thread nD τ).loc main_arg1)) (m ((c : Thread nD τ).loc main_arg2)) (m ((c : Thread nD τ).loc main_arg3)) (m ((c : Thread nD τ).loc main_arg4))) (KSpec.wcat (m ((c : Thread nD τ).loc main_arg5)) (m ((c : Thread nD τ).loc main_arg7))) :=
  (s2_v28_1 (W4 m ρ c)).trans (W4_v28_1 m ρ c RF)

/-! ## The result -/

/-- The result buffer at the last boundary: the second layer at the first layer's output. -/
theorem W6_v41 : W6 m ρ c (Proc.devRef .tc main_v41)
    = KSpec.KL (KSpec.KL (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) (m ((c : Thread nD τ).loc main_arg5)) (m ((c : Thread nD τ).loc main_arg6)) (m ((c : Thread nD τ).loc main_arg7)) := by
  refine (W6_arr m ρ c 4).trans ((RF.f24 (V5 m ρ) c).trans ?_)
  show epi (W5 m ρ c (Proc.devRef .tc main_v39)) (W5 m ρ c (Proc.devRef .tc main_v12))
    (W5 m ρ c (Proc.devRef .tc main_v40)) (W5 m ρ c (Proc.devRef .tc main_v28_1)) = _
  rw [W5_v39 m ρ c RF, W5_v12 m ρ c RF, W5_v40 m ρ c RF, W5_v28_1 m ρ c RF]
  rfl

end Cert.KernelIdeal.KValue

end
-- ==== Proof.RefTwo.lean ====
/-
  The reference is the same layer applied twice: its second layer's stages are the first layer's stages with the first
  layer's output in place of the node features and the second weight triple in place of the first.
-/
import proofs.«171537_j82300163326282_2_alg».proof.Proof.Gen.ReferenceIdeal.Read

noncomputable section

namespace Cert.ReferenceIdeal.RefValue

open Cert.ReferenceIdeal Cert.ReferenceIdeal.Read Idealize.ShloMosaic

variable {F : FTy → Type} [FloatOps F]

/-- The stage of the program's result is the stage of the first layer's output taken at that output. -/
theorem two_layers (x0 : (⟨S50000x256, .f32⟩ : BufTy).Contents (Elt F)) (x1 : (⟨S2x800000, .i32⟩ : BufTy).Contents (Elt F))
    (x2 : (⟨S256x256, .f32⟩ : BufTy).Contents (Elt F)) (x3 : (⟨S256, .f32⟩ : BufTy).Contents (Elt F))
    (x4 x5 : (⟨S256x256, .f32⟩ : BufTy).Contents (Elt F)) (x6 : (⟨S256, .f32⟩ : BufTy).Contents (Elt F))
    (x7 : (⟨S256x256, .f32⟩ : BufTy).Contents (Elt F)) :
    val_main_v67 (F := F) x0 x1 x2 x3 x4 x5 x6 x7
      = val_main_v33 (F := F) (val_main_v33 (F := F) x0 x1 x2 x3 x4) x1 x5 x6 x7 := rfl

end Cert.ReferenceIdeal.RefValue

end
-- ==== Proof.LibFinite.lean ====
/-
  FINITENESS ON THE EXTENDED REALS.  An entry is finite when it is a real number.  Sums, differences, products and
  maxima of finite entries are finite; a finite sum of finite entries is finite; the reciprocal square root of a
  positive real is finite; and  select (d > 0, rsqrt d, 0)  is finite for EVERY extended real d (the degree's
  reciprocal square root, guarded: at +∞ the reciprocal square root is 0, and where d is not positive the zero is
  taken).  An accumulating scatter into finite entries of finite updates is finite wherever the updates land, because
  each entry is the old entry plus a finite sum of updates.
-/
import Idealize.ShloMosaic.PureOps.Ideal
import Idealize.ShloMosaic.PureOps.Ideal.Laws
import Idealize.ShloMosaic.Lib.ValueIdx

noncomputable section

open scoped BigOperators

namespace Cert.Finite

open Idealize.ShloMosaic

/-- An extended real that is a real number. -/
def IsReal (x : EReal) : Prop := ∃ r : ℝ, x = (r : EReal)

theorem isReal_coe (r : ℝ) : IsReal (r : EReal) := ⟨r, rfl⟩
theorem isReal_zero : IsReal 0 := ⟨0, by simp⟩

theorem IsReal.add {x y : EReal} : IsReal x → IsReal y → IsReal (x + y)
  | ⟨a, ha⟩, ⟨b, hb⟩ => ⟨a + b, by rw [ha, hb, EReal.coe_add]⟩
theorem IsReal.sub {x y : EReal} : IsReal x → IsReal y → IsReal (x - y)
  | ⟨a, ha⟩, ⟨b, hb⟩ => ⟨a - b, by rw [ha, hb, EReal.coe_sub]⟩
theorem IsReal.mul {x y : EReal} : IsReal x → IsReal y → IsReal (x * y)
  | ⟨a, ha⟩, ⟨b, hb⟩ => ⟨a * b, by rw [ha, hb, EReal.coe_mul]⟩
theorem IsReal.max {x y : EReal} (hx : IsReal x) (hy : IsReal y) : IsReal (max x y) := by
  rcases le_total x y with h | h
  · rw [max_eq_right h]; exact hy
  · rw [max_eq_left h]; exact hx

/-- A finite sum of finite entries is finite. -/
theorem isReal_sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The float zero is finite. -/
theorem isReal_zeroWord : IsReal (Ideal.ofBits .f32 0x00000000#32) := by rw [Ideal.ofBits_zero_f32]; exact isReal_zero

/-- The float 1e-5 is a positive real. -/
theorem eps_pos : ∃ e : ℝ, 0 < e ∧ Ideal.ofBits .f32 0x3727C5AC#32 = (e : EReal) := by
  refine ⟨_, ?_, by simp [Ideal.ofBits, Ideal.ieee, -EReal.coe_mul]; rfl⟩
  norm_num

/-- The reciprocal square root of a positive real is finite. -/
theorem isReal_rsqrt_pos {v : ℝ} (hv : 0 < v) : IsReal (Ideal.rsqrt (v : EReal)) := by
  rw [Ideal.rsqrt_coe, if_neg (not_lt.2 hv.le), if_neg hv.ne']
  exact ⟨_, rfl⟩

/-- A quotient of a real by the float 100000.0 is finite. -/
theorem isReal_div_1e5 {x : EReal} (hx : IsReal x) : IsReal (Ideal.div x (Ideal.ofBits .f32 0x47C35000#32)) := by
  obtain ⟨a, rfl⟩ := hx
  have h : Ideal.ofBits .f32 0x47C35000#32 = ((100000 : ℝ) : EReal) := by
    simp [Ideal.ofBits, Ideal.ieee, -EReal.coe_mul]; norm_num
  rw [h, Ideal.div_coe (by norm_num : (100000 : ℝ) ≠ 0), ← EReal.coe_mul]
  exact ⟨_, rfl⟩

/-- The guarded reciprocal square root is finite at every extended real. -/
theorem isReal_guarded (d z z' : EReal) (hz : z = 0) (hz' : IsReal z') :
    IsReal (Scalar.select (Ideal.cmp .ogt d z) (Ideal.rsqrt d) z') := by
  unfold Scalar.select
  split
  · rename_i h
    have hd : (0 : EReal) < d := by
      subst hz
      unfold Ideal.cmp at h
      by_contra hn
      simp [hn] at h
    induction d using EReal.rec with
    | bot => exact absurd hd (by simp)
    | top => rw [Ideal.rsqrt_top]; exact isReal_zero
    | coe r => exact isReal_rsqrt_pos (by exact_mod_cast hd)
  · exact hz'

/-- An accumulating scatter of finite updates into finite entries is finite. -/
theorem isReal_scatterAdd {s si su : Shape} (d : ScatterDims s si su) {w : Nat} (x : s.Idx → EReal) (idx : IVec si w)
    (upd : su.Idx → EReal) (hx : ∀ i, IsReal (x i)) (hu : ∀ j, IsReal (upd j)) (i : s.Idx) :
    IsReal (Ideal.hostScatterAdd d x idx upd i) := by
  unfold Ideal.hostScatterAdd
  exact (hx i).add (isReal_sum _ _ fun j _ => hu j)

/-- An extended real that is a nonnegative real number. -/
def IsNN (x : EReal) : Prop := ∃ r : ℝ, 0 ≤ r ∧ x = (r : EReal)

theorem IsNN.isReal {x : EReal} : IsNN x → IsReal x | ⟨r, _, h⟩ => ⟨r, h⟩

/-- The square of a finite entry is a nonnegative real. -/
theorem IsReal.mul_self {x : EReal} : IsReal x → IsNN (x * x)
  | ⟨a, ha⟩ => ⟨a * a, mul_self_nonneg a, by rw [ha, EReal.coe_mul]⟩

theorem IsNN.add {x y : EReal} : IsNN x → IsNN y → IsNN (x + y)
  | ⟨a, ha0, ha⟩, ⟨b, hb0, hb⟩ => ⟨a + b, add_nonneg ha0 hb0, by rw [ha, hb, EReal.coe_add]⟩

theorem isNN_zero : IsNN 0 := ⟨0, le_refl 0, by simp⟩
theorem isNN_zeroWord : IsNN (Ideal.ofBits .f32 0x00000000#32) := by rw [Ideal.ofBits_zero_f32]; exact isNN_zero

/-- A finite sum of nonnegative reals is a nonnegative real. -/
theorem isNN_sum {ι : Type*} (s : Finset ι) (f : ι → EReal) (h : ∀ i ∈ s, IsNN (f i)) : IsNN (∑ i ∈ s, f i) := by
  classical
  induction s using Finset.induction_on with
  | empty => simpa using isNN_zero
  | insert a s ha ih =>
    rw [Finset.sum_insert ha]
    exact (h a (Finset.mem_insert_self a s)).add (ih fun i hi => h i (Finset.mem_insert_of_mem hi))

/-- A nonnegative real divided by the float 100000.0 is a nonnegative real. -/
theorem IsNN.div_1e5 {x : EReal} : IsNN x → IsNN (Ideal.div x (Ideal.ofBits .f32 0x47C35000#32))
  | ⟨a, ha0, ha⟩ => by
    have h : Ideal.ofBits .f32 0x47C35000#32 = ((100000 : ℝ) : EReal) := by
      simp [Ideal.ofBits, Ideal.ieee, -EReal.coe_mul]; norm_num
    rw [ha, h, Ideal.div_coe (by norm_num : (100000 : ℝ) ≠ 0), ← EReal.coe_mul]
    exact ⟨_, mul_nonneg ha0 (by norm_num), rfl⟩

/-- The reciprocal square root of a nonnegative real plus the float 1e-5 is finite. -/
theorem IsNN.rsqrt_add_eps {v : EReal} : IsNN v → IsReal (Ideal.rsqrt (v + Ideal.ofBits .f32 0x3727C5AC#32))
  | ⟨a, ha0, ha⟩ => by
    obtain ⟨e, he0, he⟩ := eps_pos
    rw [ha, he, ← EReal.coe_add]
    exact isReal_rsqrt_pos (by linarith)

/-! ## Whole arrays of finite entries -/

/-- Every entry is finite. -/
def AllReal {ι : Type} (f : ι → EReal) : Prop := ∀ i, IsReal (f i)

/-- A broadcast's entries are entries of its operand. -/
theorem AllReal.bcast {s t : Shape} {x : s.Idx → EReal} (hx : AllReal x) (dims : Fin s.rank → Fin t.rank)
    (h : s.BroadcastsInDim t dims) : AllReal (broadcastInDim t dims h x) := fun _ => hx _

/-- A gather's entries are entries of its operand. -/
theorem AllReal.gather {s si t : Shape} {w : Nat} {x : s.Idx → EReal} (hx : AllReal x) (d : GatherDims s si t) (idx : IVec si w) :
    AllReal (Host.gather d x idx) := fun _ => hx _

/-- A reshape's entries are entries of its operand. -/
theorem AllReal.cast {s t : Shape} {x : s.Idx → EReal} (hx : AllReal x) (h : s.ShapeCasts t) : AllReal (shapeCast t x h) :=
  fun _ => hx _

theorem AllReal.mulf {s : Shape} {φ : FTy} {x y : FVec Ideal s φ} (hx : AllReal x) (hy : AllReal y) : AllReal (mulf x y) :=
  fun i => (hx i).mul (hy i)
theorem AllReal.addf {s : Shape} {φ : FTy} {x y : FVec Ideal s φ} (hx : AllReal x) (hy : AllReal y) : AllReal (addf x y) :=
  fun i => (hx i).add (hy i)

/-- The zero array. -/
theorem allReal_zeros {s : Shape} (dims : Fin (⟨0, ![]⟩ : Shape).rank → Fin s.rank) (h : (⟨0, ![]⟩ : Shape).BroadcastsInDim s dims) :
    AllReal (broadcastInDim s dims h (constant (F := Ideal) ⟨0, ![]⟩ .f32 0x00000000#32)) :=
  fun _ => isReal_zeroWord

/-- An accumulating scatter of finite updates into finite entries. -/
theorem AllReal.scatterAdd {s si su : Shape} {w : Nat} {x : FVec Ideal s .f32} {u : FVec Ideal su .f32} (hx : AllReal x) (hu : AllReal u)
    (d : ScatterDims s si su) (idx : IVec si w) : AllReal (Host.scatterAdd d x idx u) :=
  fun i => isReal_scatterAdd d x idx u hx hu i

/-- A matrix product (any contraction) of finite arrays. -/
theorem AllReal.dot {sl sr so : Shape} {φ₁ φ₂ : FTy} {a : FVec Ideal sl φ₁} {b : FVec Ideal sr φ₂} (ha : AllReal a) (hb : AllReal b)
    (d : DotDims sl sr so) (prec : Option ContractPrecision) : AllReal (Host.dotGeneral d prec a b) := fun j => by
  show IsReal (FloatOps.dotGeneral d prec .single a b j)
  rw [Ideal.dotGeneral_apply]
  exact isReal_sum _ _ fun k _ => (ha _).mul (hb _)

/-- The guarded reciprocal square root of ANY array: select (deg > 0, rsqrt deg, 0). -/
theorem allReal_guard {s : Shape} (deg z z' : FVec Ideal s .f32) (hz : ∀ i, z i = 0) (hz' : AllReal z') :
    AllReal (select (cmpf .ogt deg z) (Host.rsqrt deg) z') := fun i =>
  isReal_guarded (deg i) (z i) (z' i) (hz i) (hz' i)

end Cert.Finite

end
-- ==== Proof.PreReal.lean ====
/-
  The precondition read back: when the printed predicate "every float input is finite" is all ones, every entry of every
  float input is a real number.  The predicate is a conjunction of seven  all (|x| < +inf)  tests; each conjunct gives,
  entry by entry, that the larger of x and -x lies below +inf, which on the extended reals leaves only the reals.
-/
import proofs.«171537_j82300163326282_2_alg».proof.Proof.Gen.Pre_finite_inputs
import proofs.«171537_j82300163326282_2_alg».proof.Proof.LibFinite
import Idealize.ShloMosaic.Lib.ReduceAll
import Idealize.ShloMosaic.Lib.ValueIdx

noncomputable section

namespace Cert.PreReal

open Idealize.ShloMosaic Cert.Finite

/-- The word of +inf denotes the top element. -/
theorem inf_word : Ideal.ofBits .f32 0x7F800000#32 = (⊤ : EReal) := by simp [Ideal.ofBits, Ideal.ieee]

/-- An extended real whose absolute value is below +inf is a real. -/
theorem isReal_of_abs_lt (x : EReal)
    (h : Ideal.cmp .olt (max x (-x)) (Ideal.ofBits .f32 0x7F800000#32) = 1#1) : IsReal x := by
  rw [inf_word] at h
  induction x using EReal.rec with
  | bot => simp [Ideal.cmp] at h
  | top => simp [Ideal.cmp] at h
  | coe r => exact ⟨r, rfl⟩

instance : Subsingleton (⟨0, ![]⟩ : Shape).Idx := ⟨fun a b => funext fun d => d.elim0⟩

open Cert.Pre_finite_inputs in
/-- Every float argument of which the predicate holds has only real entries. -/
theorem args_real (x0 : FVec Ideal S50000x256 .f32) (x1 : IVec S2x800000 32) (x2 : FVec Ideal S256x256 .f32)
    (x3 : FVec Ideal S256 .f32) (x4 x5 : FVec Ideal S256x256 .f32) (x6 : FVec Ideal S256 .f32)
    (x7 : FVec Ideal S256x256 .f32)
    (h : Cert.Pre_finite_inputs.fn (F := Ideal) x0 x1 x2 x3 x4 x5 x6 x7 = fun _ => 1#1) :
    AllReal x0 ∧ AllReal x2 ∧ AllReal x3 ∧ AllReal x4 ∧ AllReal x5 ∧ AllReal x6 ∧ AllReal x7 := by
  have h0 := congrFun h ValueIdx.ix0
  dsimp only [Cert.Pre_finite_inputs.fn, Cert.Pre_finite_inputs.fn_part1] at h0
  obtain ⟨h28, h32⟩ := IntOp.andi_eq_one.1 h0
  obtain ⟨h23, h27⟩ := IntOp.andi_eq_one.1 h28
  obtain ⟨h18, h22⟩ := IntOp.andi_eq_one.1 h23
  obtain ⟨h13, h17⟩ := IntOp.andi_eq_one.1 h18
  obtain ⟨h8, h12⟩ := IntOp.andi_eq_one.1 h13
  obtain ⟨h3, h7⟩ := IntOp.andi_eq_one.1 h8
  exact ⟨fun i => isReal_of_abs_lt _ (Host.reduce_andi_all _ _ _ _ _ h3 i),
    fun i => isReal_of_abs_lt _ (Host.reduce_andi_all _ _ _ _ _ h7 i),
    fun i => isReal_of_abs_lt _ (Host.reduce_andi_all _ _ _ _ _ h12 i),
    fun i => isReal_of_abs_lt _ (Host.reduce_andi_all _ _ _ _ _ h17 i),
    fun i => isReal_of_abs_lt _ (Host.reduce_andi_all _ _ _ _ _ h22 i),
    fun i => isReal_of_abs_lt _ (Host.reduce_andi_all _ _ _ _ _ h27 i),
    fun i => isReal_of_abs_lt _ (Host.reduce_andi_all _ _ _ _ _ h32 i)⟩

end Cert.PreReal

end
-- ==== Proof.Assemble.lean ====
/-
  The equivalence of the two idealized programs from two facts: what the kernel's three regions leave in their output
  arrays (the projections and the epilogue), and the law of one layer (aggregating and then projecting equals projecting
  and then aggregating, on real data).  The kernel's run ends with the second layer at the first layer's output; the
  reference's run ends with its layer applied twice; under the precondition every input entry is a real, so the law
  applies to the first layer, makes its output real, and applies again.
-/
import proofs.«171537_j82300163326282_2_alg».proof.Defs
import proofs.«171537_j82300163326282_2_alg».proof.Proof.Gen.Kernel
import proofs.«171537_j82300163326282_2_alg».proof.Proof.Gen.Kernel.Frame
import proofs.«171537_j82300163326282_2_alg».proof.Proof.Gen.KernelIdeal
import proofs.«171537_j82300163326282_2_alg».proof.Proof.Gen.KernelIdeal.Frame
import proofs.«171537_j82300163326282_2_alg».proof.Proof.Gen.ReferenceIdeal
import proofs.«171537_j82300163326282_2_alg».proof.Proof.Gen.Pre_finite_inputs
import proofs.«171537_j82300163326282_2_alg».proof.Proof.Gen.ReferenceIdeal.Run
import proofs.«171537_j82300163326282_2_alg».proof.Proof.Gen.ReferenceIdeal.Read
import proofs.«171537_j82300163326282_2_alg».proof.Proof.KernelRun
import proofs.«171537_j82300163326282_2_alg».proof.Proof.KernelValue
import proofs.«171537_j82300163326282_2_alg».proof.Proof.RefTwo
import proofs.«171537_j82300163326282_2_alg».proof.Proof.PreReal

noncomputable section

namespace Cert.Proof.Assemble

open Idealize.ShloMosaic Idealize.ShloMosaic.TcCoe Idealize.SL.Sem Cert.Finite

/-- The law of one layer: on real data the reference's layer is the kernel's, and its output is real. -/
def LayerLaw : Prop :=
  ∀ (h : FVec Ideal Cert.KernelIdeal.S50000x256 .f32) (ei : IVec Cert.KernelIdeal.S2x800000 32)
    (Wl : FVec Ideal Cert.KernelIdeal.S256x256 .f32) (b : FVec Ideal Cert.KernelIdeal.S256 .f32)
    (Wr : FVec Ideal Cert.KernelIdeal.S256x256 .f32),
    AllReal h → AllReal Wl → AllReal b → AllReal Wr →
      Cert.ReferenceIdeal.Read.val_main_v33 (F := Ideal) h ei Wl b Wr = Cert.KernelIdeal.KSpec.KL h ei Wl b Wr
      ∧ AllReal (Cert.KernelIdeal.KSpec.KL h ei Wl b Wr)

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

theorem algebraic (R : Cert.KernelIdeal.KValue.RegionFacts) (L : LayerLaw) :
    Cert.algebraic_KernelIdeal_ReferenceIdeal := by
  intro m ρ m' ρ' hpre hagree
  refine ⟨fun c => Cert.KernelIdeal.KSpec.KL
      (Cert.KernelIdeal.KSpec.KL (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4)))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)),
    fun c => m ((c.tc : Thread Cert.KernelIdeal.nD Cert.KernelIdeal.τ).loc Cert.KernelIdeal.main_arg0), ?_, ?_⟩
  · refine (θ_run Cert.KernelIdeal.defs _ _).mono (fun r h c => ?_) (Cert.KernelIdeal.KRun.run_main (F := Ideal) m ρ)
    obtain ⟨h41, h0, h1, h2, h3, h4, h5, h6, h7⟩ := h c
    exact ⟨h41.trans (Cert.KernelIdeal.KValue.W6_v41 m ρ c R), h0, h0, h1, h2, h3, h4, h5, h6, h7⟩
  · refine (θ_run Cert.ReferenceIdeal.defs _ _).mono (fun r h c => ?_) (Cert.ReferenceIdeal.Value.run (F := Ideal) m' ρ')
    obtain ⟨hres, h0, h0', h1, h2, h3, h4, h5, h6, h7⟩ := h c
    obtain ⟨a0, a1, a2, a3, a4, a5, a6, a7⟩ := hagree c
    refine ⟨hres.trans ?_, h0.trans a0, h0, h1, h2, h3, h4, h5, h6, h7⟩
    obtain ⟨r0, r2, r3, r4, r5, r6, r7⟩ := Cert.PreReal.args_real _ _ _ _ _ _ _ _ (hpre c)
    rw [Cert.ReferenceIdeal.Read.val_main_v67_eq, Cert.ReferenceIdeal.RefValue.two_layers, a0, a1, a2, a3, a4, a5, a6, a7]
    obtain ⟨e1, q1⟩ := L _ (m ((c.tc : Thread Cert.KernelIdeal.nD Cert.KernelIdeal.τ).loc Cert.KernelIdeal.main_arg1)) _ _ _ r0 r2 r3 r4
    rw [e1]
    exact (L _ _ _ _ _ q1 r5 r6 r7).1

end Cert.Proof.Assemble

end
-- ==== Proof.RegionLemmas.lean ====
/-
  A [2000,256] row block times a [256,512] weight pair, read at an index: the product into the zero accumulator at
  row p, column c is the sum over the contraction index k of a[p,k] * b[k,c]. Also: the two zero offsets of a rank-2
  rectangle are the zero function.
-/
import proofs.«171537_j82300163326282_2_alg».proof.Proof.Gen.KernelIdeal.Frame
import proofs.«171537_j82300163326282_2_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.RegionValue

open Cert.KernelIdeal Cert.KernelIdeal.Gen Cert.Sage Idealize.ShloMosaic Idealize.ShloMosaic.ValueIdx
open Idealize.ShloMosaic.TcCoe Idealize.SL.Sem
open Idealize.ShloMosaic.Pipeline (Dat)

/-! ## The block product at an index -/

theorem lhs_row (i : S2000x512.Idx) (q : dot_S2000x256_S256x512_S2000x512_1_0_0_1_n_n.contr.Idx) :
    (dot_S2000x256_S256x512_S2000x512_1_0_0_1_n_n.lhsIdx i q 0).val = (i 0).val := by
  unfold DotDims.lhsIdx
  rw [dif_neg (show ¬(0 : Fin S2000x256.rank) ∈ dot_S2000x256_S256x512_S2000x512_1_0_0_1_n_n.lhsBatch by decide), dif_pos (show (0 : Fin S2000x256.rank) ∈ dot_S2000x256_S256x512_S2000x512_1_0_0_1_n_n.lhsNonContracting by decide)]
  rfl
theorem lhs_contr (i : S2000x512.Idx) (q : dot_S2000x256_S256x512_S2000x512_1_0_0_1_n_n.contr.Idx) :
    (dot_S2000x256_S256x512_S2000x512_1_0_0_1_n_n.lhsIdx i q 1).val = (q ⟨0, by decide⟩).val :=
  dot_S2000x256_S256x512_S2000x512_1_0_0_1_n_n.lhsIdx_val_of_single rfl i q
theorem rhs_contr (i : S2000x512.Idx) (q : dot_S2000x256_S256x512_S2000x512_1_0_0_1_n_n.contr.Idx) :
    (dot_S2000x256_S256x512_S2000x512_1_0_0_1_n_n.rhsIdx i q 0).val = (q ⟨0, by decide⟩).val :=
  dot_S2000x256_S256x512_S2000x512_1_0_0_1_n_n.rhsIdx_val_of_single rfl i q
theorem rhs_col (i : S2000x512.Idx) (q : dot_S2000x256_S256x512_S2000x512_1_0_0_1_n_n.contr.Idx) :
    (dot_S2000x256_S256x512_S2000x512_1_0_0_1_n_n.rhsIdx i q 1).val = (i 1).val := by
  unfold DotDims.rhsIdx
  rw [dif_neg (show ¬(1 : Fin S256x512.rank) ∈ dot_S2000x256_S256x512_S2000x512_1_0_0_1_n_n.rhsBatch by decide), dif_pos (show (1 : Fin S256x512.rank) ∈ dot_S2000x256_S256x512_S2000x512_1_0_0_1_n_n.rhsNonContracting by decide)]
  rfl

/-- A [2000,256] block times a [256,512] block into the zero accumulator, read at row p, column c: the sum over
    the contraction index of the operands' products. -/
theorem blockProd_apply (a : FVec Ideal S2000x256 .bf16) (b : FVec Ideal S256x512 .bf16) (p : Fin 2000) (c : Fin 512) :
    (matmul dot_S2000x256_S256x512_S2000x512_1_0_0_1_n_n none a b (constant S2000x512 .f32 0x00000000#32) : FVec Ideal S2000x512 .f32) (ix2 p c)
      = ∑ k : Fin 256, a (ix2 p k) * b (ix2 k c) := by
  simp only [matmul]
  rw [Ideal.matmul_constant_zero_apply,
    ← Equiv.sum_comp (contrEquiv1 dot_S2000x256_S256x512_S2000x512_1_0_0_1_n_n 256 rfl rfl).symm]
  refine Finset.sum_congr rfl fun k _ => ?_
  have hk := contrEquiv1_symm_val dot_S2000x256_S256x512_S2000x512_1_0_0_1_n_n 256 rfl rfl k
  have el : dot_S2000x256_S256x512_S2000x512_1_0_0_1_n_n.lhsIdx (ix2 p c) ((contrEquiv1 dot_S2000x256_S256x512_S2000x512_1_0_0_1_n_n 256 rfl rfl).symm k) = ix2 p k := funext fun x => Fin.ext (by
    match x with
    | ⟨0, _⟩ => exact lhs_row _ _
    | ⟨1, _⟩ => exact (lhs_contr _ _).trans hk)
  have er : dot_S2000x256_S256x512_S2000x512_1_0_0_1_n_n.rhsIdx (ix2 p c) ((contrEquiv1 dot_S2000x256_S256x512_S2000x512_1_0_0_1_n_n 256 rfl rfl).symm k) = ix2 k c := funext fun x => Fin.ext (by
    match x with
    | ⟨0, _⟩ => exact (rhs_contr _ _).trans hk
    | ⟨1, _⟩ => exact rhs_col _ _)
  rw [el, er]

theorem zero_offsets : (![0, 0] : Fin 2 → Nat) = fun _ => 0 := funext fun a => by fin_cases a <;> rfl

end Cert.KernelIdeal.RegionValue

end
-- ==== Proof.RegionValue0.lean ====
/-
  Region 0 (the projection of the node array through the weight pair): what it leaves in its two output arrays, as
  whole-array functions of the contents V the region is entered with. A grid point t reads rows 2000 t … 2000 t + 1999
  of the node array and the whole [256,512] weight pair, and writes the left half of their product to the same rows of
  the first output and the right half to the same rows of the second; the 25 row blocks tile the 50000 rows, so the
  first output ends at projL of the entry contents and the second at projR.
-/
import proofs.«171537_j82300163326282_2_alg».proof.Proof.Gen.KernelIdeal.Frame
import proofs.«171537_j82300163326282_2_alg».proof.Proof.Spec
import Idealize.ShloMosaic.Lib.Pipeline.Value
import Idealize.ShloMosaic.Lib.ValueIdx
import Idealize.ShloMosaic.PureOps.Ideal.Laws
import proofs.«171537_j82300163326282_2_alg».proof.Proof.RegionLemmas
set_option maxRecDepth 16384

noncomputable section

open scoped BigOperators

namespace Cert.KernelIdeal.RegionValue

open Cert.KernelIdeal Cert.KernelIdeal.Gen Cert.Sage Idealize.ShloMosaic Idealize.ShloMosaic.ValueIdx
open Idealize.ShloMosaic.TcCoe Idealize.SL.Sem
open Idealize.ShloMosaic.Pipeline (Dat)

/-! ## Region 0's payloads at an index -/

/-- Region 0's product payload at row p, column c. -/
theorem k0_prod_apply (x0 : Vec Ideal S2000x256 .f32) (x1 : Vec Ideal S256x512 .f32) (p : Fin 2000) (c : Fin 512) :
    k0_pay1 (F := Ideal) x0 x1 (ix2 p c) = ∑ k : Fin 256, x0 (ix2 p k) * x1 (ix2 k c) := by
  unfold k0_pay1
  rw [blockProd_apply]
  refine Finset.sum_congr rfl fun k _ => ?_
  rw [truncf_apply, truncf_apply, shapeCast_self]

/-- The left half of the product: window 2's payload. -/
theorem k0_pay2_apply (x0 : Vec Ideal S2000x256 .f32) (x1 : Vec Ideal S256x512 .f32) (p : Fin 2000) (q : Fin 256) :
    k0_pay2 (F := Ideal) x0 x1 (ix2 p q) = ∑ k : Fin 256, x0 (ix2 p k) * x1 (ix2 k (colL q)) := by
  unfold k0_pay2
  rw [truncf_apply, extractStridedSlice_apply ![0, 0] _ slices_S2000x512_o0_0_S2000x256 (ix2 p q) (ix2 p (colL q))
    (fun a => by match a with
      | ⟨0, _⟩ => show p.val = 0 + p.val; omega
      | ⟨1, _⟩ => show q.val = 0 + q.val; omega)]
  exact k0_prod_apply x0 x1 p (colL q)

/-- The right half of the product: window 3's payload. -/
theorem k0_pay3_apply (x0 : Vec Ideal S2000x256 .f32) (x1 : Vec Ideal S256x512 .f32) (p : Fin 2000) (q : Fin 256) :
    k0_pay3 (F := Ideal) x0 x1 (ix2 p q) = ∑ k : Fin 256, x0 (ix2 p k) * x1 (ix2 k (colR q)) := by
  unfold k0_pay3
  rw [extractStridedSlice_apply ![0, 256] _ slices_S2000x512_o0_256_S2000x256 (ix2 p q) (ix2 p (colR q))
    (fun a => by match a with
      | ⟨0, _⟩ => show p.val = 0 + p.val; omega
      | ⟨1, _⟩ => show 256 + q.val = 256 + q.val; rfl)]
  exact k0_prod_apply x0 x1 p (colR q)

/-! ## From blocks to the arrays -/

section Blocks
variable (V : (c : Dev nD) → (b : Ref sig .tc) → Buf (Elt Ideal) ((c : Thread nD τ).loc b))

/-- The index maps, decided over the 25 grid points: a row-block window is at block (t, 0), the whole-array
    window at block (0, 0). -/
theorem index_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The node array's block at point t holds rows 2000 t … 2000 t + 1999. -/
theorem nodeBlock0_apply (c : Dev nD) (t : Fin cfg0.N) (p : Fin 2000) (k : Fin 256) (n : Fin 50000)
    (hn : n.val = t.val * 2000 + p.val) :
    (iblk0 V c 0 t : Vec Ideal S2000x256 .f32) (ix2 p k) = (V c main_arg0 : S50000x256.Idx → EReal) (ix2 n k) := by
  obtain ⟨e0, e1, -⟩ := index_facts0 t
  unfold iblk0
  rw [View.read_apply]
  show V c main_arg0 _ = V c main_arg0 _
  congr 1
  funext a
  apply Fin.ext
  match a with
  | ⟨0, _⟩ => show win0_0.index t 0 * 2000 + 1 * p.val = n.val; rw [e0, hn]; omega
  | ⟨1, _⟩ => show win0_0.index t 1 * 256 + 1 * k.val = k.val; rw [e1]; omega

/-- The weight pair's block at every point is the whole array. -/
theorem weightBlock0_apply (c : Dev nD) (t : Fin cfg0.N) (k : Fin 256) (q : Fin 512) :
    (iblk0 V c 1 t : Vec Ideal S256x512 .f32) (ix2 k q) = (V c main_v13 : S256x512.Idx → EReal) (ix2 k q) := by
  obtain ⟨-, -, e0, e1, -⟩ := index_facts0 t
  unfold iblk0
  rw [View.read_apply]
  show V c main_v13 _ = V c main_v13 _
  congr 1
  funext a
  apply Fin.ext
  match a with
  | ⟨0, _⟩ => show win0_1.index t 0 * 256 + 1 * k.val = k.val; rw [e0]; omega
  | ⟨1, _⟩ => show win0_1.index t 1 * 512 + 1 * q.val = q.val; rw [e1]; omega

/-- Where output window 2's block at point t puts its row p, column q. -/
theorem outBlock0_2_emb (t : Fin cfg0.N) (p : Fin 2000) (q : Fin 256) (n : Fin 50000) (hn : n.val = t.val * 2000 + p.val) :
    ((cfg0.win 2).blk t).view.emb (ix2 p q) = (ix2 n q : S50000x256.Idx) := by
  obtain ⟨-, -, -, -, e0, e1, -⟩ := index_facts0 t
  funext a
  apply Fin.ext
  match a with
  | ⟨0, _⟩ => show win0_2.index t 0 * 2000 + 1 * p.val = n.val; rw [e0, hn]; omega
  | ⟨1, _⟩ => show win0_2.index t 1 * 256 + 1 * q.val = q.val; rw [e1]; omega

theorem outBlock0_3_emb (t : Fin cfg0.N) (p : Fin 2000) (q : Fin 256) (n : Fin 50000) (hn : n.val = t.val * 2000 + p.val) :
    ((cfg0.win 3).blk t).view.emb (ix2 p q) = (ix2 n q : S50000x256.Idx) := by
  obtain ⟨-, -, -, -, -, -, e0, e1⟩ := index_facts0 t
  funext a
  apply Fin.ext
  match a with
  | ⟨0, _⟩ => show win0_3.index t 0 * 2000 + 1 * p.val = n.val; rw [e0, hn]; omega
  | ⟨1, _⟩ => show win0_3.index t 1 * 256 + 1 * q.val = q.val; rw [e1]; omega

/-- What point t writes back to window 2's array is block t of the left projection of the entry contents. -/
theorem flushed0_2_eq (c : Dev nD) (t : Fin cfg0.N) :
    (dat0 (F := Ideal) V c).flushed 2 t
      = ((cfg0.win 2).blk t).view.read (Elt Ideal) (projL (V c main_arg0) (V c main_v13)) := by
  show (cfg0.win 2).cut (grid0.coords t) ((dat0 V c).after 2 t) = _
  rw [after0_2]
  unfold out0_2
  rw [View.canon_unit_zero zero_offsets]
  simp only [View.ld_unit_zero (S := S2000x256) zero_offsets, View.ld_unit_zero (S := S256x512) zero_offsets]
  have ht : t.val < 25 := lt_of_lt_of_eq t.isLt N_0
  funext j
  obtain ⟨p, q, rfl⟩ : ∃ (p : Fin 2000) (q : Fin 256), j = ix2 p q := ⟨j 0, j 1, eq_ix2 j⟩
  rw [View.read_apply, outBlock0_2_emb t p q ⟨t.val * 2000 + p.val, by omega⟩ rfl]
  show k0_pay2 (iblk0 V c 0 t) (iblk0 V c 1 t) (ix2 p q) = _
  rw [k0_pay2_apply, projL_apply]
  refine Finset.sum_congr rfl fun k _ => ?_
  rw [nodeBlock0_apply V c t p k ⟨t.val * 2000 + p.val, by omega⟩ rfl, weightBlock0_apply V c t]

/-- What point t writes back to window 3's array is block t of the right projection of the entry contents. -/
theorem flushed0_3_eq (c : Dev nD) (t : Fin cfg0.N) :
    (dat0 (F := Ideal) V c).flushed 3 t
      = ((cfg0.win 3).blk t).view.read (Elt Ideal) (projR (V c main_arg0) (V c main_v13)) := by
  show (cfg0.win 3).cut (grid0.coords t) ((dat0 V c).after 3 t) = _
  rw [after0_3]
  unfold out0_3
  rw [View.canon_unit_zero zero_offsets]
  simp only [View.ld_unit_zero (S := S2000x256) zero_offsets, View.ld_unit_zero (S := S256x512) zero_offsets]
  have ht : t.val < 25 := lt_of_lt_of_eq t.isLt N_0
  funext j
  obtain ⟨p, q, rfl⟩ : ∃ (p : Fin 2000) (q : Fin 256), j = ix2 p q := ⟨j 0, j 1, eq_ix2 j⟩
  rw [View.read_apply, outBlock0_3_emb t p q ⟨t.val * 2000 + p.val, by omega⟩ rfl]
  show k0_pay3 (iblk0 V c 0 t) (iblk0 V c 1 t) (ix2 p q) = _
  rw [k0_pay3_apply, projR_apply]
  refine Finset.sum_congr rfl fun k _ => ?_
  rw [nodeBlock0_apply V c t p k ⟨t.val * 2000 + p.val, by omega⟩ rfl, weightBlock0_apply V c t]

/-- An index of window 2's array is in point t's block iff each coordinate is in the block's range on its axis. -/
theorem mem_outBlock0_2 (t : Fin cfg0.N) (i : S50000x256.Idx) :
    i ∈ ((cfg0.win 2).blk t).view.set ↔ ∀ a : Fin 2, win0_2.index t a * S2000x256.size a ≤ (i a).val
      ∧ (i a).val < win0_2.index t a * S2000x256.size a + S2000x256.size a := by
  show i ∈ ((View.whole main_v15_0).slice (win0_2.rect t)).set ↔ _
  rw [View.set_slice_whole, Rect.mem_set_unit]
  exact Iff.rfl

theorem mem_outBlock0_3 (t : Fin cfg0.N) (i : S50000x256.Idx) :
    i ∈ ((cfg0.win 3).blk t).view.set ↔ ∀ a : Fin 2, win0_3.index t a * S2000x256.size a ≤ (i a).val
      ∧ (i a).val < win0_3.index t a * S2000x256.size a + S2000x256.size a := by
  show i ∈ ((View.whole main_v15_1).slice (win0_3.rect t)).set ↔ _
  rw [View.set_slice_whole, Rect.mem_set_unit]
  exact Iff.rfl

/-- Every index of window 2's array is in the block of the point its row falls in: row r is in block r / 2000. -/
theorem covered0_2 (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  obtain ⟨t, htv⟩ : ∃ t : Fin cfg0.N, t.val = (i 0).val / 2000 :=
    ⟨⟨(i 0).val / 2000, by rw [show cfg0.N = 25 from N_0]; omega⟩, rfl⟩
  obtain ⟨-, -, -, -, e0, e1, -⟩ := index_facts0 t
  refine ⟨t, flush0_2 t, ?_⟩
  rw [mem_outBlock0_2]
  intro a
  match a with
  | ⟨0, _⟩ =>
    show win0_2.index t 0 * 2000 ≤ (i 0).val ∧ (i 0).val < win0_2.index t 0 * 2000 + 2000
    rw [e0, htv]; omega
  | ⟨1, _⟩ =>
    show win0_2.index t 1 * 256 ≤ (i 1).val ∧ (i 1).val < win0_2.index t 1 * 256 + 256
    rw [e1]; omega

theorem covered0_3 (i : S50000x256.Idx) :
    ∃ t : Fin cfg0.N, (cfg0.win 3).flush t = true ∧ i ∈ ((cfg0.win 3).blk t).view.set := by
  have hi0 : (i 0).val < 50000 := (i 0).isLt
  have hi1 : (i 1).val < 256 := (i 1).isLt
  obtain ⟨t, htv⟩ : ∃ t : Fin cfg0.N, t.val = (i 0).val / 2000 :=
    ⟨⟨(i 0).val / 2000, by rw [show cfg0.N = 25 from N_0]; omega⟩, rfl⟩
  obtain ⟨-, -, -, -, -, -, e0, e1⟩ := index_facts0 t
  refine ⟨t, flush0_3 t, ?_⟩
  rw [mem_outBlock0_3]
  intro a
  match a with
  | ⟨0, _⟩ =>
    show win0_3.index t 0 * 2000 ≤ (i 0).val ∧ (i 0).val < win0_3.index t 0 * 2000 + 2000
    rw [e0, htv]; omega
  | ⟨1, _⟩ =>
    show win0_3.index t 1 * 256 ≤ (i 1).val ∧ (i 1).val < win0_3.index t 1 * 256 + 256
    rw [e1]; omega

/-- After region 0, window 2's array is the left projection of the region's entry contents. -/
theorem final0_2 (c : Dev nD) :
    (dat0 (F := Ideal) V c).arrAt 2 cfg0.N = projL (V c main_arg0) (V c main_v13) :=
  (dat0 V c).arrAt_eq_of_cover 2 (projL (V c main_arg0) (V c main_v13)) (fun t _ => flushed0_2_eq V c t) covered0_2

/-- After region 0, window 3's array is the right projection of the region's entry contents. -/
theorem final0_3 (c : Dev nD) :
    (dat0 (F := Ideal) V c).arrAt 3 cfg0.N = projR (V c main_arg0) (V c main_v13) :=
  (dat0 V c).arrAt_eq_of_cover 3 (projR (V c main_arg0) (V c main_v13)) (fun t _ => flushed0_3_eq V c t) covered0_3

end Blocks

end Cert.KernelIdeal.RegionValue

end
-- ==== Proof.RegionEpilogue.lean ====
/-
  The layer epilogue on a [2000,256] row block, read at an index: row p, column q of the payload is
  act (agg[p,q] * inv[p,0] + b[0,q] + r[p,q]); the [2000,1] column and the [1,256] row broadcasts read at an index; and
  region 1's product payload is the block product of the epilogue's payload with the weight pair.
-/
import proofs.«171537_j82300163326282_2_alg».proof.Proof.Gen.KernelIdeal.Frame
import proofs.«171537_j82300163326282_2_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.RegionValue

open Cert.KernelIdeal Cert.KernelIdeal.Gen Cert.Sage Idealize.ShloMosaic Idealize.ShloMosaic.ValueIdx
open Idealize.ShloMosaic.TcCoe Idealize.SL.Sem
open Idealize.ShloMosaic.Pipeline (Dat)

/-! ## The epilogue's payload at an index -/

/-- A [2000,1] column broadcast along the rows of a [2000,256] block reads the column at the row. -/
theorem colBroadcast_apply (x : FVec Ideal S2000x1 .f32) (p : Fin 2000) (q : Fin 256) :
    broadcastTo S2000x256 x broadcasts_S2000x1_S2000x256 (ix2 p q) = x (ix2 p (0 : Fin 1)) :=
  broadcastTo_apply x _ (ix2 p q) (ix2 p (0 : Fin 1)) (fun a => by
    match a with
    | ⟨0, _⟩ => show p.val = if (2000 : Nat) = 1 then 0 else p.val; rw [if_neg (by decide)]
    | ⟨1, _⟩ => show 0 = if (1 : Nat) = 1 then 0 else q.val; rw [if_pos rfl])

/-- A [1,256] row broadcast down the columns of a [2000,256] block reads the row at the column. -/
theorem rowBroadcast_apply (x : FVec Ideal S1x256 .f32) (p : Fin 2000) (q : Fin 256) :
    broadcastTo S2000x256 x broadcasts_S1x256_S2000x256 (ix2 p q) = x (ix2 (0 : Fin 1) q) :=
  broadcastTo_apply x _ (ix2 p q) (ix2 (0 : Fin 1) q) (fun a => by
    match a with
    | ⟨0, _⟩ => show 0 = if (1 : Nat) = 1 then 0 else p.val; rw [if_pos rfl]
    | ⟨1, _⟩ => show q.val = if (256 : Nat) = 1 then 0 else q.val; rw [if_neg (by decide)])

/-- The epilogue's payload at row p, column q: the aggregate scaled by the row's factor, plus the bias row, plus the
    root term, rectified. -/
theorem k2_pay1_apply (x0 : Vec Ideal S2000x256 .f32) (x1 : Vec Ideal S2000x1 .f32) (x2 : Vec Ideal S1x256 .f32)
    (x3 : Vec Ideal S2000x256 .f32) (p : Fin 2000) (q : Fin 256) :
    k2_pay1 (F := Ideal) x0 x1 x2 x3 (ix2 p q)
      = act (x0 (ix2 p q) * x1 (ix2 p (0 : Fin 1)) + x2 (ix2 (0 : Fin 1) q) + x3 (ix2 p q)) := by
  unfold k2_pay1
  simp only [shapeCast_self]
  rw [select_apply, cmpf_apply, mulf_apply, broadcast_apply, broadcast_apply, addf_apply, addf_apply, mulf_apply,
    colBroadcast_apply, rowBroadcast_apply]
  rfl

/-- Region 1's product payload is the block product of the epilogue's payload with the weight pair. -/
theorem k1_pay1_eq (x0 : Vec Ideal S2000x256 .f32) (x1 : Vec Ideal S2000x1 .f32) (x2 : Vec Ideal S1x256 .f32)
    (x3 : Vec Ideal S2000x256 .f32) (x4 : Vec Ideal S256x512 .f32) :
    k1_pay1 (F := Ideal) x0 x1 x2 x3 x4
      = matmul dot_S2000x256_S256x512_S2000x512_1_0_0_1_n_n none
          (truncf .bf16 (k2_pay1 (F := Ideal) x0 x1 x2 x3) bitsLt_bf16_f32)
          (truncf .bf16 (shapeCast S256x512 x4 shapeCasts_S256x512_S256x512) bitsLt_bf16_f32)
          (constant S2000x512 .f32 0x00000000#32) := rfl

end Cert.KernelIdeal.RegionValue

end
-- ==== Proof.RegionValue1.lean ====
/-
  Region 1 (the first layer's epilogue followed by the second layer's projection): what it leaves in its two output
  arrays, as whole-array functions of the contents V the region is entered with. A grid point t reads rows
  2000 t … 2000 t + 1999 of the aggregate, of the column of row factors and of the root term, the whole bias row and the
  whole [256,512] weight pair; it forms h = act (agg * inv + b + r) on its rows and writes the left half of h times the
  weight pair to the same rows of the first output and the right half to the same rows of the second; the 25 row blocks
  tile the 50000 rows, so the outputs end at projL and projR of epi of the entry contents.
-/
import proofs.«171537_j82300163326282_2_alg».proof.Proof.Gen.KernelIdeal.Frame
import proofs.«171537_j82300163326282_2_alg».proof.Proof.Spec
import Idealize.ShloMosaic.Lib.Pipeline.Value
import Idealize.ShloMosaic.Lib.ValueIdx
import Idealize.ShloMosaic.PureOps.Ideal.Laws
import proofs.«171537_j82300163326282_2_alg».proof.Proof.RegionLemmas
import proofs.«171537_j82300163326282_2_alg».proof.Proof.RegionEpilogue
set_option maxRecDepth 16384

noncomputable section

open scoped BigOperators

namespace Cert.KernelIdeal.RegionValue

open Cert.KernelIdeal Cert.KernelIdeal.Gen Cert.Sage Idealize.ShloMosaic Idealize.ShloMosaic.ValueIdx
open Idealize.ShloMosaic.TcCoe Idealize.SL.Sem
open Idealize.ShloMosaic.Pipeline (Dat)

/-! ## Region 1's payloads at an index -/

/-- Region 1's product payload at row p, column c: the epilogue's row p times column c of the weight pair. -/
theorem k1_prod_apply (x0 : Vec Ideal S2000x256 .f32) (x1 : Vec Ideal S2000x1 .f32) (x2 : Vec Ideal S1x256 .f32)
    (x3 : Vec Ideal S2000x256 .f32) (x4 : Vec Ideal S256x512 .f32) (p : Fin 2000) (c : Fin 512) :
    k1_pay1 (F := Ideal) x0 x1 x2 x3 x4 (ix2 p c)
      = ∑ k : Fin 256, act (x0 (ix2 p k) * x1 (ix2 p (0 : Fin 1)) + x2 (ix2 (0 : Fin 1) k) + x3 (ix2 p k))
          * x4 (ix2 k c) := by
  rw [k1_pay1_eq, blockProd_apply]
  refine Finset.sum_congr rfl fun k _ => ?_
  rw [truncf_apply, truncf_apply, shapeCast_self, k2_pay1_apply]

/-- The left half of the product: window 5's payload. -/
theorem k1_pay2_apply (x0 : Vec Ideal S2000x256 .f32) (x1 : Vec Ideal S2000x1 .f32) (x2 : Vec Ideal S1x256 .f32)
    (x3 : Vec Ideal S2000x256 .f32) (x4 : Vec Ideal S256x512 .f32) (p : Fin 2000) (q : Fin 256) :
    k1_pay2 (F := Ideal) x0 x1 x2 x3 x4 (ix2 p q)
      = ∑ k : Fin 256, act (x0 (ix2 p k) * x1 (ix2 p (0 : Fin 1)) + x2 (ix2 (0 : Fin 1) k) + x3 (ix2 p k))
          * x4 (ix2 k (colL q)) := by
  unfold k1_pay2
  rw [truncf_apply, extractStridedSlice_apply ![0, 0] _ slices_S2000x512_o0_0_S2000x256 (ix2 p q) (ix2 p (colL q))
    (fun a => by match a with
      | ⟨0, _⟩ => show p.val = 0 + p.val; omega
      | ⟨1, _⟩ => show q.val = 0 + q.val; omega)]
  exact k1_prod_apply x0 x1 x2 x3 x4 p (colL q)

/-- The right half of the product: window 6's payload. -/
theorem k1_pay3_apply (x0 : Vec Ideal S2000x256 .f32) (x1 : Vec Ideal S2000x1 .f32) (x2 : Vec Ideal S1x256 .f32)
    (x3 : Vec Ideal S2000x256 .f32) (x4 : Vec Ideal S256x512 .f32) (p : Fin 2000) (q : Fin 256) :
    k1_pay3 (F := Ideal) x0 x1 x2 x3 x4 (ix2 p q)
      = ∑ k : Fin 256, act (x0 (ix2 p k) * x1 (ix2 p (0 : Fin 1)) + x2 (ix2 (0 : Fin 1) k) + x3 (ix2 p k))
          * x4 (ix2 k (colR q)) := by
  unfold k1_pay3
  rw [extractStridedSlice_apply ![0, 256] _ slices_S2000x512_o0_256_S2000x256 (ix2 p q) (ix2 p (colR q))
    (fun a => by match a with
      | ⟨0, _⟩ => show p.val = 0 + p.val; omega
      | ⟨1, _⟩ => show 256 + q.val = 256 + q.val; rfl)]
  exact k1_prod_apply x0 x1 x2 x3 x4 p (colR q)

/-! ## From blocks to the arrays -/

section Blocks
variable (V : (c : Dev nD) → (b : Ref sig .tc) → Buf (Elt Ideal) ((c : Thread nD τ).loc b))

/-- The index maps, decided over the 25 grid points: a row-block window is at block (t, 0), a whole-array window at
    block (0, 0). -/
theorem index_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-- The aggregate's block at point t holds rows 2000 t … 2000 t + 1999. -/
theorem aggBlock1_apply (c : Dev nD) (t : Fin cfg1.N) (p : Fin 2000) (q : Fin 256) (n : Fin 50000)
    (hn : n.val = t.val * 2000 + p.val) :
    (iblk1 V c 0 t : Vec Ideal S2000x256 .f32) (ix2 p q) = (V c main_v26 : S50000x256.Idx → EReal) (ix2 n q) := by
  obtain ⟨e0, e1, -⟩ := index_facts1 t
  unfold iblk1
  rw [View.read_apply]
  show V c main_v26 _ = V c main_v26 _
  congr 1
  funext a
  apply Fin.ext
  match a with
  | ⟨0, _⟩ => show win1_0.index t 0 * 2000 + 1 * p.val = n.val; rw [e0, hn]; omega
  | ⟨1, _⟩ => show win1_0.index t 1 * 256 + 1 * q.val = q.val; rw [e1]; omega

/-- The row factors' block at point t holds rows 2000 t … 2000 t + 1999 of the column. -/
theorem scaleBlock1_apply (c : Dev nD) (t : Fin cfg1.N) (p : Fin 2000) (q : Fin 1) (n : Fin 50000)
    (hn : n.val = t.val * 2000 + p.val) :
    (iblk1 V c 1 t : Vec Ideal S2000x1 .f32) (ix2 p q) = (V c main_v12 : S50000x1.Idx → EReal) (ix2 n q) := by
  obtain ⟨-, -, e0, e1, -⟩ := index_facts1 t
  unfold iblk1
  rw [View.read_apply]
  show V c main_v12 _ = V c main_v12 _
  congr 1
  funext a
  apply Fin.ext
  match a with
  | ⟨0, _⟩ => show win1_1.index t 0 * 2000 + 1 * p.val = n.val; rw [e0, hn]; omega
  | ⟨1, _⟩ => show win1_1.index t 1 * 1 + 1 * q.val = q.val; rw [e1]; omega

/-- The bias row's block at every point is the whole row. -/
theorem biasBlock1_apply (c : Dev nD) (t : Fin cfg1.N) (k : Fin 1) (q : Fin 256) :
    (iblk1 V c 2 t : Vec Ideal S1x256 .f32) (ix2 k q) = (V c main_v27 : S1x256.Idx → EReal) (ix2 k q) := by
  obtain ⟨-, -, -, -, e0, e1, -⟩ := index_facts1 t
  unfold iblk1
  rw [View.read_apply]
  show V c main_v27 _ = V c main_v27 _
  congr 1
  funext a
  apply Fin.ext
  match a with
  | ⟨0, _⟩ => show win1_2.index t 0 * 1 + 1 * k.val = k.val; rw [e0]; omega
  | ⟨1, _⟩ => show win1_2.index t 1 * 256 + 1 * q.val = q.val; rw [e1]; omega

/-- The root term's block at point t holds rows 2000 t … 2000 t + 1999. -/
theorem rootBlock1_apply (c : Dev nD) (t : Fin cfg1.N) (p : Fin 2000) (q : Fin 256) (n : Fin 50000)
    (hn : n.val = t.val * 2000 + p.val) :
    (iblk1 V c 3 t : Vec Ideal S2000x256 .f32) (ix2 p q) = (V c main_v15_1 : S50000x256.Idx → EReal) (ix2 n q) := by
  obtain ⟨-, -, -, -, -, -, e0, e1, -⟩ := index_facts1 t
  unfold iblk1
  rw [View.read_apply]
  show V c main_v15_1 _ = V c main_v15_1 _
  congr 1
  funext a
  apply Fin.ext
  match a with
  | ⟨0, _⟩ => show win1_3.index t 0 * 2000 + 1 * p.val = n.val; rw [e0, hn]; omega
  | ⟨1, _⟩ => show win1_3.index t 1 * 256 + 1 * q.val = q.val; rw [e1]; omega

/-- The weight pair's block at every point is the whole array. -/
theorem weightBlock1_apply (c : Dev nD) (t : Fin cfg1.N) (k : Fin 256) (q : Fin 512) :
    (iblk1 V c 4 t : Vec Ideal S256x512 .f32) (ix2 k q) = (V c main_v14 : S256x512.Idx → EReal) (ix2 k q) := by
  obtain ⟨-, -, -, -, -, -, -, -, e0, e1, -⟩ := index_facts1 t
  unfold iblk1
  rw [View.read_apply]
  show V c main_v14 _ = V c main_v14 _
  congr 1
  funext a
  apply Fin.ext
  match a with
  | ⟨0, _⟩ => show win1_4.index t 0 * 256 + 1 * k.val = k.val; rw [e0]; omega
  | ⟨1, _⟩ => show win1_4.index t 1 * 512 + 1 * q.val = q.val; rw [e1]; omega

/-- Where output window 5's block at point t puts its row p, column q. -/
theorem outBlock1_5_emb (t : Fin cfg1.N) (p : Fin 2000) (q : Fin 256) (n : Fin 50000) (hn : n.val = t.val * 2000 + p.val) :
    ((cfg1.win 5).blk t).view.emb (ix2 p q) = (ix2 n q : S50000x256.Idx) := by
  obtain ⟨-, -, -, -, -, -, -, -, -, -, e0, e1, -⟩ := index_facts1 t
  funext a
  apply Fin.ext
  match a with
  | ⟨0, _⟩ => show win1_5.index t 0 * 2000 + 1 * p.val = n.val; rw [e0, hn]; omega
  | ⟨1, _⟩ => show win1_5.index t 1 * 256 + 1 * q.val = q.val; rw [e1]; omega

/-- What point t writes back to window 5's array is block t of the left projection of the epilogue of the entry contents. -/
theorem flushed1_5_eq (c : Dev nD) (t : Fin cfg1.N) :
    (dat1 (F := Ideal) V c).flushed 5 t
      = ((cfg1.win 5).blk t).view.read (Elt Ideal) (projL (epi (V c main_v26) (V c main_v12) (V c main_v27) (V c main_v15_1)) (V c main_v14)) := by
  show (cfg1.win 5).cut (grid1.coords t) ((dat1 V c).after 5 t) = _
  rw [after1_5]
  unfold out1_5
  rw [View.canon_unit_zero zero_offsets]
  simp only [View.ld_unit_zero (S := S2000x256) zero_offsets, View.ld_unit_zero (S := S2000x1) zero_offsets, View.ld_unit_zero (S := S1x256) zero_offsets, View.ld_unit_zero (S := S256x512) zero_offsets]
  have ht : t.val < 25 := lt_of_lt_of_eq t.isLt N_1
  funext j
  obtain ⟨p, q, rfl⟩ : ∃ (p : Fin 2000) (q : Fin 256), j = ix2 p q := ⟨j 0, j 1, eq_ix2 j⟩
  rw [View.read_apply, outBlock1_5_emb t p q ⟨t.val * 2000 + p.val, by omega⟩ rfl]
  show k1_pay2 (iblk1 V c 0 t) (iblk1 V c 1 t) (iblk1 V c 2 t) (iblk1 V c 3 t) (iblk1 V c 4 t) (ix2 p q) = _
  rw [k1_pay2_apply, projL_apply]
  refine Finset.sum_congr rfl fun k _ => ?_
  rw [epi_apply, aggBlock1_apply V c t p k ⟨t.val * 2000 + p.val, by omega⟩ rfl,
    scaleBlock1_apply V c t p (0 : Fin 1) ⟨t.val * 2000 + p.val, by omega⟩ rfl, biasBlock1_apply V c t,
    rootBlock1_apply V c t p k ⟨t.val * 2000 + p.val, by omega⟩ rfl, weightBlock1_apply V c t]

/-- An index of window 5's array is in point t's block iff each coordinate is in the block's range on its axis. -/
theorem mem_outBlock1_5 (t : Fin cfg1.N) (i : S50000x256.Idx) :
    i ∈ ((cfg1.win 5).blk t).view.set ↔ ∀ a : Fin 2, win1_5.index t a * S2000x256.size a ≤ (i a).val
      ∧ (i a).val < win1_5.index t a * S2000x256.size a + S2000x256.size a := by
  show i ∈ ((View.whole main_v28_0).slice (win1_5.rect t)).set ↔ _
  rw [View.set_slice_whole, Rect.mem_set_unit]
  exact Iff.rfl

/-- Every index of window 5's array is in the block of the point its row falls in: row r is in block r / 2000. -/
theorem covered1_5 (i : S50000x256.Idx) :
    ∃ t : Fin cfg1.N, (cfg1.win 5).flush t = true ∧ i ∈ ((cfg1.win 5).blk t).view.set := by
  have hi0 : (i 0).val < 50000 := (i 0).isLt
  have hi1 : (i 1).val < 256 := (i 1).isLt
  obtain ⟨t, htv⟩ : ∃ t : Fin cfg1.N, t.val = (i 0).val / 2000 :=
    ⟨⟨(i 0).val / 2000, by rw [show cfg1.N = 25 from N_1]; omega⟩, rfl⟩
  obtain ⟨-, -, -, -, -, -, -, -, -, -, e0, e1, -⟩ := index_facts1 t
  refine ⟨t, flush1_5 t, ?_⟩
  rw [mem_outBlock1_5]
  intro a
  match a with
  | ⟨0, _⟩ =>
    show win1_5.index t 0 * 2000 ≤ (i 0).val ∧ (i 0).val < win1_5.index t 0 * 2000 + 2000
    rw [e0, htv]; omega
  | ⟨1, _⟩ =>
    show win1_5.index t 1 * 256 ≤ (i 1).val ∧ (i 1).val < win1_5.index t 1 * 256 + 256
    rw [e1]; omega

/-- After region 1, window 5's array is the left projection of the epilogue of the region's entry contents. -/
theorem final1_5 (c : Dev nD) :
    (dat1 (F := Ideal) V c).arrAt 5 cfg1.N = projL (epi (V c main_v26) (V c main_v12) (V c main_v27) (V c main_v15_1)) (V c main_v14) :=
  (dat1 V c).arrAt_eq_of_cover 5 (projL (epi (V c main_v26) (V c main_v12) (V c main_v27) (V c main_v15_1)) (V c main_v14)) (fun t _ => flushed1_5_eq V c t) covered1_5

/-- Where output window 6's block at point t puts its row p, column q. -/
theorem outBlock1_6_emb (t : Fin cfg1.N) (p : Fin 2000) (q : Fin 256) (n : Fin 50000) (hn : n.val = t.val * 2000 + p.val) :
    ((cfg1.win 6).blk t).view.emb (ix2 p q) = (ix2 n q : S50000x256.Idx) := by
  obtain ⟨-, -, -, -, -, -, -, -, -, -, -, -, e0, e1⟩ := index_facts1 t
  funext a
  apply Fin.ext
  match a with
  | ⟨0, _⟩ => show win1_6.index t 0 * 2000 + 1 * p.val = n.val; rw [e0, hn]; omega
  | ⟨1, _⟩ => show win1_6.index t 1 * 256 + 1 * q.val = q.val; rw [e1]; omega

/-- What point t writes back to window 6's array is block t of the right projection of the epilogue of the entry contents. -/
theorem flushed1_6_eq (c : Dev nD) (t : Fin cfg1.N) :
    (dat1 (F := Ideal) V c).flushed 6 t
      = ((cfg1.win 6).blk t).view.read (Elt Ideal) (projR (epi (V c main_v26) (V c main_v12) (V c main_v27) (V c main_v15_1)) (V c main_v14)) := by
  show (cfg1.win 6).cut (grid1.coords t) ((dat1 V c).after 6 t) = _
  rw [after1_6]
  unfold out1_6
  rw [View.canon_unit_zero zero_offsets]
  simp only [View.ld_unit_zero (S := S2000x256) zero_offsets, View.ld_unit_zero (S := S2000x1) zero_offsets, View.ld_unit_zero (S := S1x256) zero_offsets, View.ld_unit_zero (S := S256x512) zero_offsets]
  have ht : t.val < 25 := lt_of_lt_of_eq t.isLt N_1
  funext j
  obtain ⟨p, q, rfl⟩ : ∃ (p : Fin 2000) (q : Fin 256), j = ix2 p q := ⟨j 0, j 1, eq_ix2 j⟩
  rw [View.read_apply, outBlock1_6_emb t p q ⟨t.val * 2000 + p.val, by omega⟩ rfl]
  show k1_pay3 (iblk1 V c 0 t) (iblk1 V c 1 t) (iblk1 V c 2 t) (iblk1 V c 3 t) (iblk1 V c 4 t) (ix2 p q) = _
  rw [k1_pay3_apply, projR_apply]
  refine Finset.sum_congr rfl fun k _ => ?_
  rw [epi_apply, aggBlock1_apply V c t p k ⟨t.val * 2000 + p.val, by omega⟩ rfl,
    scaleBlock1_apply V c t p (0 : Fin 1) ⟨t.val * 2000 + p.val, by omega⟩ rfl, biasBlock1_apply V c t,
    rootBlock1_apply V c t p k ⟨t.val * 2000 + p.val, by omega⟩ rfl, weightBlock1_apply V c t]

/-- An index of window 6's array is in point t's block iff each coordinate is in the block's range on its axis. -/
theorem mem_outBlock1_6 (t : Fin cfg1.N) (i : S50000x256.Idx) :
    i ∈ ((cfg1.win 6).blk t).view.set ↔ ∀ a : Fin 2, win1_6.index t a * S2000x256.size a ≤ (i a).val
      ∧ (i a).val < win1_6.index t a * S2000x256.size a + S2000x256.size a := by
  show i ∈ ((View.whole main_v28_1).slice (win1_6.rect t)).set ↔ _
  rw [View.set_slice_whole, Rect.mem_set_unit]
  exact Iff.rfl

/-- Every index of window 6's array is in the block of the point its row falls in: row r is in block r / 2000. -/
theorem covered1_6 (i : S50000x256.Idx) :
    ∃ t : Fin cfg1.N, (cfg1.win 6).flush t = true ∧ i ∈ ((cfg1.win 6).blk t).view.set := by
  have hi0 : (i 0).val < 50000 := (i 0).isLt
  have hi1 : (i 1).val < 256 := (i 1).isLt
  obtain ⟨t, htv⟩ : ∃ t : Fin cfg1.N, t.val = (i 0).val / 2000 :=
    ⟨⟨(i 0).val / 2000, by rw [show cfg1.N = 25 from N_1]; omega⟩, rfl⟩
  obtain ⟨-, -, -, -, -, -, -, -, -, -, -, -, e0, e1⟩ := index_facts1 t
  refine ⟨t, flush1_6 t, ?_⟩
  rw [mem_outBlock1_6]
  intro a
  match a with
  | ⟨0, _⟩ =>
    show win1_6.index t 0 * 2000 ≤ (i 0).val ∧ (i 0).val < win1_6.index t 0 * 2000 + 2000
    rw [e0, htv]; omega
  | ⟨1, _⟩ =>
    show win1_6.index t 1 * 256 ≤ (i 1).val ∧ (i 1).val < win1_6.index t 1 * 256 + 256
    rw [e1]; omega

/-- After region 1, window 6's array is the right projection of the epilogue of the region's entry contents. -/
theorem final1_6 (c : Dev nD) :
    (dat1 (F := Ideal) V c).arrAt 6 cfg1.N = projR (epi (V c main_v26) (V c main_v12) (V c main_v27) (V c main_v15_1)) (V c main_v14) :=
  (dat1 V c).arrAt_eq_of_cover 6 (projR (epi (V c main_v26) (V c main_v12) (V c main_v27) (V c main_v15_1)) (V c main_v14)) (fun t _ => flushed1_6_eq V c t) covered1_6

end Blocks

end Cert.KernelIdeal.RegionValue

end
-- ==== Proof.RegionValue2.lean ====
/-
  Region 2 (the second layer's epilogue): what it leaves in its output array, as a whole-array function of the contents
  V the region is entered with. A grid point t reads rows 2000 t … 2000 t + 1999 of the aggregate, of the column of row
  factors and of the root term, and the whole bias row, and writes act (agg * inv + b + r) to the same rows of the
  output; the 25 row blocks tile the 50000 rows, so the output ends at epi of the entry contents.
-/
import proofs.«171537_j82300163326282_2_alg».proof.Proof.Gen.KernelIdeal.Frame
import proofs.«171537_j82300163326282_2_alg».proof.Proof.Spec
import Idealize.ShloMosaic.Lib.Pipeline.Value
import Idealize.ShloMosaic.Lib.ValueIdx
import Idealize.ShloMosaic.PureOps.Ideal.Laws
import proofs.«171537_j82300163326282_2_alg».proof.Proof.RegionLemmas
import proofs.«171537_j82300163326282_2_alg».proof.Proof.RegionEpilogue
set_option maxRecDepth 16384

noncomputable section

open scoped BigOperators

namespace Cert.KernelIdeal.RegionValue

open Cert.KernelIdeal Cert.KernelIdeal.Gen Cert.Sage Idealize.ShloMosaic Idealize.ShloMosaic.ValueIdx
open Idealize.ShloMosaic.TcCoe Idealize.SL.Sem
open Idealize.ShloMosaic.Pipeline (Dat)

/-! ## From blocks to the array -/

section Blocks
variable (V : (c : Dev nD) → (b : Ref sig .tc) → Buf (Elt Ideal) ((c : Thread nD τ).loc b))

/-- The index maps, decided over the 25 grid points: a row-block window is at block (t, 0), a whole-array window at
    block (0, 0). -/
theorem index_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- The aggregate's block at point t holds rows 2000 t … 2000 t + 1999. -/
theorem aggBlock2_apply (c : Dev nD) (t : Fin cfg2.N) (p : Fin 2000) (q : Fin 256) (n : Fin 50000)
    (hn : n.val = t.val * 2000 + p.val) :
    (iblk2 V c 0 t : Vec Ideal S2000x256 .f32) (ix2 p q) = (V c main_v39 : S50000x256.Idx → EReal) (ix2 n q) := by
  obtain ⟨e0, e1, -⟩ := index_facts2 t
  unfold iblk2
  rw [View.read_apply]
  show V c main_v39 _ = V c main_v39 _
  congr 1
  funext a
  apply Fin.ext
  match a with
  | ⟨0, _⟩ => show win2_0.index t 0 * 2000 + 1 * p.val = n.val; rw [e0, hn]; omega
  | ⟨1, _⟩ => show win2_0.index t 1 * 256 + 1 * q.val = q.val; rw [e1]; omega

/-- The row factors' block at point t holds rows 2000 t … 2000 t + 1999 of the column. -/
theorem scaleBlock2_apply (c : Dev nD) (t : Fin cfg2.N) (p : Fin 2000) (q : Fin 1) (n : Fin 50000)
    (hn : n.val = t.val * 2000 + p.val) :
    (iblk2 V c 1 t : Vec Ideal S2000x1 .f32) (ix2 p q) = (V c main_v12 : S50000x1.Idx → EReal) (ix2 n q) := by
  obtain ⟨-, -, e0, e1, -⟩ := index_facts2 t
  unfold iblk2
  rw [View.read_apply]
  show V c main_v12 _ = V c main_v12 _
  congr 1
  funext a
  apply Fin.ext
  match a with
  | ⟨0, _⟩ => show win2_1.index t 0 * 2000 + 1 * p.val = n.val; rw [e0, hn]; omega
  | ⟨1, _⟩ => show win2_1.index t 1 * 1 + 1 * q.val = q.val; rw [e1]; omega

/-- The bias row's block at every point is the whole row. -/
theorem biasBlock2_apply (c : Dev nD) (t : Fin cfg2.N) (k : Fin 1) (q : Fin 256) :
    (iblk2 V c 2 t : Vec Ideal S1x256 .f32) (ix2 k q) = (V c main_v40 : S1x256.Idx → EReal) (ix2 k q) := by
  obtain ⟨-, -, -, -, e0, e1, -⟩ := index_facts2 t
  unfold iblk2
  rw [View.read_apply]
  show V c main_v40 _ = V c main_v40 _
  congr 1
  funext a
  apply Fin.ext
  match a with
  | ⟨0, _⟩ => show win2_2.index t 0 * 1 + 1 * k.val = k.val; rw [e0]; omega
  | ⟨1, _⟩ => show win2_2.index t 1 * 256 + 1 * q.val = q.val; rw [e1]; omega

/-- The root term's block at point t holds rows 2000 t … 2000 t + 1999. -/
theorem rootBlock2_apply (c : Dev nD) (t : Fin cfg2.N) (p : Fin 2000) (q : Fin 256) (n : Fin 50000)
    (hn : n.val = t.val * 2000 + p.val) :
    (iblk2 V c 3 t : Vec Ideal S2000x256 .f32) (ix2 p q) = (V c main_v28_1 : S50000x256.Idx → EReal) (ix2 n q) := by
  obtain ⟨-, -, -, -, -, -, e0, e1, -⟩ := index_facts2 t
  unfold iblk2
  rw [View.read_apply]
  show V c main_v28_1 _ = V c main_v28_1 _
  congr 1
  funext a
  apply Fin.ext
  match a with
  | ⟨0, _⟩ => show win2_3.index t 0 * 2000 + 1 * p.val = n.val; rw [e0, hn]; omega
  | ⟨1, _⟩ => show win2_3.index t 1 * 256 + 1 * q.val = q.val; rw [e1]; omega

/-- Where output window 4's block at point t puts its row p, column q. -/
theorem outBlock2_4_emb (t : Fin cfg2.N) (p : Fin 2000) (q : Fin 256) (n : Fin 50000) (hn : n.val = t.val * 2000 + p.val) :
    ((cfg2.win 4).blk t).view.emb (ix2 p q) = (ix2 n q : S50000x256.Idx) := by
  obtain ⟨-, -, -, -, -, -, -, -, e0, e1⟩ := index_facts2 t
  funext a
  apply Fin.ext
  match a with
  | ⟨0, _⟩ => show win2_4.index t 0 * 2000 + 1 * p.val = n.val; rw [e0, hn]; omega
  | ⟨1, _⟩ => show win2_4.index t 1 * 256 + 1 * q.val = q.val; rw [e1]; omega

/-- What point t writes back to window 4's array is block t of the epilogue of the entry contents. -/
theorem flushed2_4_eq (c : Dev nD) (t : Fin cfg2.N) :
    (dat2 (F := Ideal) V c).flushed 4 t
      = ((cfg2.win 4).blk t).view.read (Elt Ideal) (epi (V c main_v39) (V c main_v12) (V c main_v40) (V c main_v28_1)) := by
  show (cfg2.win 4).cut (grid2.coords t) ((dat2 V c).after 4 t) = _
  rw [after2_4]
  unfold out2_4
  rw [View.canon_unit_zero zero_offsets]
  simp only [View.ld_unit_zero (S := S2000x256) zero_offsets, View.ld_unit_zero (S := S2000x1) zero_offsets, View.ld_unit_zero (S := S1x256) zero_offsets]
  have ht : t.val < 25 := lt_of_lt_of_eq t.isLt N_2
  funext j
  obtain ⟨p, q, rfl⟩ : ∃ (p : Fin 2000) (q : Fin 256), j = ix2 p q := ⟨j 0, j 1, eq_ix2 j⟩
  rw [View.read_apply, outBlock2_4_emb t p q ⟨t.val * 2000 + p.val, by omega⟩ rfl]
  show k2_pay1 (iblk2 V c 0 t) (iblk2 V c 1 t) (iblk2 V c 2 t) (iblk2 V c 3 t) (ix2 p q) = _
  rw [k2_pay1_apply, epi_apply, aggBlock2_apply V c t p q ⟨t.val * 2000 + p.val, by omega⟩ rfl,
    scaleBlock2_apply V c t p (0 : Fin 1) ⟨t.val * 2000 + p.val, by omega⟩ rfl, biasBlock2_apply V c t,
    rootBlock2_apply V c t p q ⟨t.val * 2000 + p.val, by omega⟩ rfl]
  rfl

/-- An index of window 4's array is in point t's block iff each coordinate is in the block's range on its axis. -/
theorem mem_outBlock2_4 (t : Fin cfg2.N) (i : S50000x256.Idx) :
    i ∈ ((cfg2.win 4).blk t).view.set ↔ ∀ a : Fin 2, win2_4.index t a * S2000x256.size a ≤ (i a).val
      ∧ (i a).val < win2_4.index t a * S2000x256.size a + S2000x256.size a := by
  show i ∈ ((View.whole main_v41).slice (win2_4.rect t)).set ↔ _
  rw [View.set_slice_whole, Rect.mem_set_unit]
  exact Iff.rfl

/-- Every index of window 4's array is in the block of the point its row falls in: row r is in block r / 2000. -/
theorem covered2_4 (i : S50000x256.Idx) :
    ∃ t : Fin cfg2.N, (cfg2.win 4).flush t = true ∧ i ∈ ((cfg2.win 4).blk t).view.set := by
  have hi0 : (i 0).val < 50000 := (i 0).isLt
  have hi1 : (i 1).val < 256 := (i 1).isLt
  obtain ⟨t, htv⟩ : ∃ t : Fin cfg2.N, t.val = (i 0).val / 2000 :=
    ⟨⟨(i 0).val / 2000, by rw [show cfg2.N = 25 from N_2]; omega⟩, rfl⟩
  obtain ⟨-, -, -, -, -, -, -, -, e0, e1⟩ := index_facts2 t
  refine ⟨t, flush2_4 t, ?_⟩
  rw [mem_outBlock2_4]
  intro a
  match a with
  | ⟨0, _⟩ =>
    show win2_4.index t 0 * 2000 ≤ (i 0).val ∧ (i 0).val < win2_4.index t 0 * 2000 + 2000
    rw [e0, htv]; omega
  | ⟨1, _⟩ =>
    show win2_4.index t 1 * 256 ≤ (i 1).val ∧ (i 1).val < win2_4.index t 1 * 256 + 256
    rw [e1]; omega

/-- After region 2, window 4's array is the epilogue of the region's entry contents. -/
theorem final2_4 (c : Dev nD) :
    (dat2 (F := Ideal) V c).arrAt 4 cfg2.N = epi (V c main_v39) (V c main_v12) (V c main_v40) (V c main_v28_1) :=
  (dat2 V c).arrAt_eq_of_cover 4 (epi (V c main_v39) (V c main_v12) (V c main_v40) (V c main_v28_1)) (fun t _ => flushed2_4_eq V c t) covered2_4

end Blocks

end Cert.KernelIdeal.RegionValue

end
-- ==== Proof.LibRowIndex.lean ====
/-
  StableHLO's row gather and row scatter READ AT AN INDEX, for the dimension numbers that indexing the rows of a
  2-D array (or the entries of a 1-D array) by an index column `[E, 1]`, and a segment sum over such a column, lower to.

  Gather (`offset_dims = [1]`, `collapsed_slice_dims = [0]`, `start_index_map = [0]`, `index_vector_dim = 1`,
  `slice_sizes = [1, C]`): result element `(e, c)` is the operand at row `idx[e, 0]` — read as a signed integer and
  clamped into `[0, N − 1]`, as StableHLO clamps every start index — and column `c`. The rank-1 form
  (`offset_dims = []`, `slice_sizes = [1]`) reads entry `idx[e, 0]`, clamped the same way.

  Scatter (`update_window_dims = [1]`, `inserted_window_dims = [0]`, `scatter_dims_to_operand_dims = [0]`,
  `index_vector_dim = 1`): update `(e, c)` lands on operand row `idx[e, 0]` — read signed and NOT clamped — and
  column `c`; it lands only when that row is inside `[0, N)`, and is dropped otherwise.
-/
import Idealize.ShloMosaic.Lib.ValueIdx

noncomputable section

namespace Cert.RowIndex

open Idealize.ShloMosaic Idealize.ShloMosaic.ValueIdx

/-! ## Rows of a rank-2 operand at an index column -/

section Gather
variable {α : Type}

/-- The row gather's dimension numbers for an operand `[N, C]`, start indices `[E, 1]` and result `[E, C]`; their
    conditions `wf` are decided on a program's literal shapes. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The operand index result element `(e, c)` reads: row `idx[e, 0]` (signed, clamped into `[0, N − 1]`), column `c`.
    Axis 0 is collapsed and indexed (start index, no offset); axis 1 is a full-width offset axis (start 0, offset `c`). -/
theorem rowGather_operandIdx {N E C w : Nat} (hN : 0 < N)
    (wf : GatherDims.WF ⟨2, ![N, C]⟩ ⟨2, ![E, 1]⟩ ⟨2, ![E, C]⟩ [1] [0] [] [0] [] 1 ![1, C])
    (idx : IVec ⟨2, ![E, 1]⟩ w) (e : Fin E) (c : Fin C) :
    (rowGatherDims N E C wf).operandIdx (ix2 e c) idx
      = ix2 ⟨min (idx (ix2 e (0 : Fin 1))).toInt.toNat (N - 1), by omega⟩ c := by
  have h0 : ((rowGatherDims N E C wf).operandIdx (ix2 e c) idx (0 : Fin 2)).val
      = min (idx (ix2 e (0 : Fin 1))).toInt.toNat (N - 1) := by
    show (rowGatherDims N E C wf).start (ix2 e c) idx 0 + (rowGatherDims N E C wf).batchCoord (ix2 e c) 0
      + (rowGatherDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  have h1 : ((rowGatherDims N E C wf).operandIdx (ix2 e c) idx (1 : Fin 2)).val = c.val := by
    show (rowGatherDims N E C wf).start (ix2 e c) idx 1 + (rowGatherDims N E C wf).batchCoord (ix2 e c) 1
      + (rowGatherDims N E C wf).offCoord (ix2 e c) 1 = _
    rw [GatherDims.batchCoord_eq_zero _ _ _ List.not_mem_nil]
    simp only [Nat.add_zero]
    unfold GatherDims.start
    rw [dif_neg (show (1 : Fin 2) ∉ (rowGatherDims N E C wf).startIndexMap from
      (by decide : (1 : Fin 2) ∉ ([0] : List (Fin 2))))]
    rw [Nat.zero_add]
    unfold GatherDims.offCoord
    rw [dif_pos (show (1 : Fin 2) ∈ (rowGatherDims N E C wf).sKept from (GatherDims.mem_sKept _ _).mpr
      ⟨(by decide : (1 : Fin 2) ∉ ([0] : List (Fin 2))), List.not_mem_nil⟩)]
    rfl
  funext a; refine Fin.ext ?_
  match a with
  | ⟨0, _⟩ => exact h0
  | ⟨1, _⟩ => exact h1

/-- THE ROW GATHER READ AT `(e, c)`. -/
theorem rowGather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c)
      = x (ix2 ⟨min (idx (ix2 e (0 : Fin 1))).toInt.toNat (N - 1), by omega⟩ c) := by
  unfold Host.gather
  rw [rowGather_operandIdx hN]

/-! ## The same gather of a rank-1 operand: entries of a vector at an index column -/

/-- The entry gather's dimension numbers for an operand `[N]`, start indices `[E, 1]` and result `[E]`. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The operand index result element `e` reads: entry `idx[e, 0]`, signed and clamped into `[0, N − 1]`. -/
theorem vecGather_operandIdx {N E w : Nat} (hN : 0 < N)
    (wf : GatherDims.WF ⟨1, ![N]⟩ ⟨2, ![E, 1]⟩ ⟨1, ![E]⟩ [] [0] [] [0] [] 1 ![1])
    (idx : IVec ⟨2, ![E, 1]⟩ w) (e : Fin E) :
    (vecGatherDims N E wf).operandIdx (ix1 e) idx
      = ix1 ⟨min (idx (ix2 e (0 : Fin 1))).toInt.toNat (N - 1), by omega⟩ := by
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- THE ENTRY GATHER READ AT `e`. -/
theorem vecGather_apply {N E w : Nat} (hN : 0 < N)
    (wf : GatherDims.WF ⟨1, ![N]⟩ ⟨2, ![E, 1]⟩ ⟨1, ![E]⟩ [] [0] [] [0] [] 1 ![1])
    (v : (⟨1, ![N]⟩ : Shape).Idx → α) (idx : IVec ⟨2, ![E, 1]⟩ w) (e : Fin E) :
    Host.gather (vecGatherDims N E wf) v idx (ix1 e)
      = v (ix1 ⟨min (idx (ix2 e (0 : Fin 1))).toInt.toNat (N - 1), by omega⟩) := by
  unfold Host.gather
  rw [vecGather_operandIdx hN]

end Gather

/-! ## Rows scattered into a rank-2 operand at an index column -/

section Scatter

/-- The row scatter's dimension numbers for an operand `[N, C]`, scatter indices `[E, 1]` and updates `[E, C]`. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- On the row axis the window of update `(e, c)` starts at `idx[e, 0]`, read signed and not clamped. -/
theorem rowScatter_start0 {N E C w : Nat}
    (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatterDims N E C wf).start (ix2 e c) idx 0 = (idx (ix2 e (0 : Fin 1))).toInt := by
  unfold ScatterDims.start
  rw [dif_pos (show (0 : Fin 2) ∈ (rowScatterDims N E C wf).scatterDimsToOperandDims from List.mem_singleton.mpr rfl)]
  have hsi : (rowScatterDims N E C wf).siIdx (ix2 e c)
      ⟨List.idxOf (0 : Fin 2) (rowScatterDims N E C wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis, which the index map does not name, the window starts at `0`. -/
theorem rowScatter_start1 {N E C w : Nat}
    (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatterDims N E C wf).start (ix2 e c) idx 1 = 0 := by
  unfold ScatterDims.start
  rw [dif_neg (show (1 : Fin 2) ∉ (rowScatterDims N E C wf).scatterDimsToOperandDims from
    (by decide : (1 : Fin 2) ∉ ([0] : List (Fin 2))))]

/-- The row axis is an inserted window axis: its window coordinate is `0`. -/
theorem rowScatter_window0 {N E C : Nat}
    (wf : ScatterDims.WF ⟨2, ![N, C]⟩ ⟨2, ![E, 1]⟩ ⟨2, ![E, C]⟩ [1] [0] [0] 1) (e : Fin E) (c : Fin C) :
    (rowScatterDims N E C wf).window (ix2 e c) 0 = 0 := by
  unfold ScatterDims.window
  rw [dif_neg]
  simp [ScatterDims.sKept, Shape.kept, List.mem_filter, List.mem_finRange]

/-- The column axis carries the update's window axis: its window coordinate is the update's column `c`. -/
theorem rowScatter_window1 {N E C : Nat}
    (wf : ScatterDims.WF ⟨2, ![N, C]⟩ ⟨2, ![E, 1]⟩ ⟨2, ![E, C]⟩ [1] [0] [0] 1) (e : Fin E) (c : Fin C) :
    (rowScatterDims N E C wf).window (ix2 e c) 1 = c.val := by
  unfold ScatterDims.window
  rw [dif_pos (show (1 : Fin 2) ∈ (rowScatterDims N E C wf).sKept from by
    simp [ScatterDims.sKept, Shape.kept, List.mem_filter, List.mem_finRange])]
  rfl

/-- WHERE UPDATE `(e, c)` LANDS: if it lands at operand index `i`, then `i`'s row is the index `idx[e, 0]` read signed
    (so that index is in `[0, N)`) and `i`'s column is `c`. -/
theorem rowScatter_lands {N E C w : Nat}
    (wf : ScatterDims.WF ⟨2, ![N, C]⟩ ⟨2, ![E, 1]⟩ ⟨2, ![E, C]⟩ [1] [0] [0] 1)
    (idx : IVec ⟨2, ![E, 1]⟩ w) (e : Fin E) (c : Fin C) (i : (⟨2, ![N, C]⟩ : Shape).Idx)
    (h : (rowScatterDims N E C wf).resultIdx? (ix2 e c) idx = some i) :
    (idx (ix2 e (0 : Fin 1))).toInt = ((i 0).val : Int) ∧ (i 1).val = c.val := by
  unfold ScatterDims.resultIdx? at h
  split at h
  · rename_i hc
    have hi := Option.some.inj h
    subst hi
    have h0 := (hc 0).1
    rw [rowScatter_start0, rowScatter_window0] at h0
    refine ⟨?_, ?_⟩
    · show _ = (((rowScatterDims N E C wf).start (ix2 e c) idx 0 + ((rowScatterDims N E C wf).window (ix2 e c) 0 : Nat)).toNat : Int)
      rw [rowScatter_start0, rowScatter_window0]
      omega
    · show ((rowScatterDims N E C wf).start (ix2 e c) idx 1 + ((rowScatterDims N E C wf).window (ix2 e c) 1 : Nat)).toNat = _
      rw [rowScatter_start1, rowScatter_window1]
      omega
  · exact absurd h (by simp)

end Scatter

end Cert.RowIndex
-- ==== Proof.LibMeanScale.lean ====
/-
  ROWS SCALED BY A COLUMN, AND A MEAN TAKEN TWO WAYS, at the ideal values.

  A mean over a node's neighbours is the sum of their rows divided by their number.  Two spellings occur.  One divides
  every entry of row `p` of the sum `a` by `D p` (the count, raised to at least one).  The other first takes the reciprocal
  `1 / D p` once per row, keeps it as a column `[R, 1]`, and multiplies row `p` of `a` by it.  On the extended reals
  `x / y` is `x · y⁻¹` whenever `y ≠ 0`, and `1 · z = z`, so  `x · (1 / y) = x / y`  for EVERY extended real `x` and
  every `y ≠ 0`, infinite ones included: nothing has to be finite (`mul_one_div`).  A count raised to at least one is
  never zero (`max_one_ne_zero`).
  Stated for any number `R` of rows and any width `K`:
  • `scaleRows a s`: row `p` of `a` times the one entry of row `p` of the column `s`; it depends on row `p` only
    (`scaleRows_rows`);
  • `kscale`: on the vector unit, the product of `a` (cast to itself) with the column cast to itself and broadcast along
    the rows IS `scaleRows a s`;
  • `hmean`: on the host, the quotient of `a` by the vector `D` broadcast to a column and then along the rows IS
    `scaleRows a` of the column obtained by reshaping `one / D`, when `one` is 1 everywhere and `D` is nowhere zero;
  • the two layout facts used: a column broadcast along the rows (`broadcastTo_a1_ab_apply`), a vector reshaped to a
    column (`shapeCast_a_a1_apply`), a vector broadcast to a column and a column broadcast along the rows on the host
    (`bcast_a_a1_apply`, `bcast_a1_ab_apply`), a scalar constant broadcast to any shape (`bcast_const_apply`).
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.MeanScale

open Idealize.ShloMosaic Idealize.ShloMosaic.ValueIdx

/-! ## The law on the extended reals -/

/-- The float word of 1.0 is the number one. -/
theorem ofBits_one : Ideal.ofBits .f32 0x3F800000#32 = 1 := by
  simp [Ideal.ofBits, Ideal.ieee, -EReal.coe_mul]; norm_num

/-- Multiplying by the reciprocal is dividing, for every extended real `x` and every divisor other than zero. -/
theorem mul_one_div {x y : EReal} (hy : y ≠ 0) : x * Ideal.div 1 y = Ideal.div x y := by
  unfold Ideal.div
  rw [if_neg hy, if_neg hy, one_mul]

/-- A number raised to at least one is not zero. -/
theorem max_one_ne_zero (d : EReal) : max d 1 ≠ 0 :=
  ne_of_gt (lt_of_lt_of_le zero_lt_one (le_max_right d 1))

/-! ## Layout facts -/

variable {α : Type}

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A vector `[a]` reshaped to a column `[a, 1]` reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- On the host: a vector `[a]` broadcast to a column `[a, 1]` along axis 0 reads, at `(p, u)`, the vector at `p`. -/
theorem bcast_a_a1_apply {a : ℕ} (x : (⟨1, ![a]⟩ : Shape).Idx → α) (h : (⟨1, ![a]⟩ : Shape).BroadcastsInDim ⟨2, ![a, 1]⟩ ![0])
    (p : Fin a) (u : Fin 1) : broadcastInDim ⟨2, ![a, 1]⟩ ![0] h x (ix2 p u) = x (ix1 p) :=
  broadcastInDim_apply _ h x (ix2 p u) (ix1 p) fun ax => by
    match ax with
    | ⟨0, _⟩ =>
      show p.val = if a = 1 then 0 else p.val
      split
      · have := p.isLt; omega
      · rfl

/-- On the host: a column `[a, 1]` broadcast to `[a, b]` reads, at `(p, c)`, the column's entry of row `p`. -/
theorem bcast_a1_ab_apply {a b : ℕ} (v : (⟨2, ![a, 1]⟩ : Shape).Idx → α) (h : (⟨2, ![a, 1]⟩ : Shape).BroadcastsInDim ⟨2, ![a, b]⟩ ![0, 1])
    (p : Fin a) (c : Fin b) : broadcastInDim ⟨2, ![a, b]⟩ ![0, 1] h v (ix2 p c) = v (ix2 p (0 : Fin 1)) :=
  broadcastInDim_apply _ h v (ix2 p c) (ix2 p (0 : Fin 1)) fun ax => by
    match ax with
    | ⟨0, _⟩ =>
      show p.val = if a = 1 then 0 else p.val
      split
      · have := p.isLt; omega
      · rfl
    | ⟨1, _⟩ =>
      show (0 : ℕ) = if (1 : ℕ) = 1 then 0 else c.val
      rw [if_pos rfl]

/-- A scalar float constant broadcast to any shape reads its word's value everywhere. -/
theorem bcast_const_apply {s : Shape} (h : (⟨0, ![]⟩ : Shape).BroadcastsInDim s ![]) (w : BitVec 32) (i : s.Idx) :
    broadcastInDim s ![] h (constant (F := Ideal) ⟨0, ![]⟩ .f32 w) i = Ideal.ofBits .f32 w := by
  rw [broadcastInDim_apply _ h _ i ix0 (fun a => a.elim0)]
  rfl

/-! ## Rows scaled by a column -/

/-- Row `p` of `a` times the one entry of row `p` of the column `s`. -/
def scaleRows {R K : ℕ} (a : (⟨2, ![R, K]⟩ : Shape).Idx → EReal) (s : (⟨2, ![R, 1]⟩ : Shape).Idx → EReal) :
    (⟨2, ![R, K]⟩ : Shape).Idx → EReal :=
  fun i => a i * s (ix2 (i 0) (0 : Fin 1))

theorem scaleRows_apply {R K : ℕ} (a : (⟨2, ![R, K]⟩ : Shape).Idx → EReal) (s : (⟨2, ![R, 1]⟩ : Shape).Idx → EReal)
    (p : Fin R) (k : Fin K) : scaleRows a s (ix2 p k) = a (ix2 p k) * s (ix2 p (0 : Fin 1)) := rfl

/-- Row `p` of the scaled array depends on row `p` of the array and of the column only. -/
theorem scaleRows_rows {R R' K : ℕ} (a : (⟨2, ![R, K]⟩ : Shape).Idx → EReal) (s : (⟨2, ![R, 1]⟩ : Shape).Idx → EReal)
    (A : (⟨2, ![R', K]⟩ : Shape).Idx → EReal) (S : (⟨2, ![R', 1]⟩ : Shape).Idx → EReal) (p : Fin R) (p' : Fin R')
    (ha : ∀ k : Fin K, a (ix2 p k) = A (ix2 p' k)) (hs : s (ix2 p (0 : Fin 1)) = S (ix2 p' (0 : Fin 1))) (k : Fin K) :
    scaleRows a s (ix2 p k) = scaleRows A S (ix2 p' k) := by
  rw [scaleRows_apply, scaleRows_apply, ha k, hs]

/-- On the vector unit: the array cast to itself times the column cast to itself and broadcast along the rows. -/
theorem kscale {R K : ℕ} (a : FVec Ideal ⟨2, ![R, K]⟩ .f32) (s : FVec Ideal ⟨2, ![R, 1]⟩ .f32)
    (ha : (⟨2, ![R, K]⟩ : Shape).ShapeCasts ⟨2, ![R, K]⟩) (hs : (⟨2, ![R, 1]⟩ : Shape).ShapeCasts ⟨2, ![R, 1]⟩)
    (hb : (⟨2, ![R, 1]⟩ : Shape).Broadcasts ⟨2, ![R, K]⟩) :
    mulf (shapeCast ⟨2, ![R, K]⟩ a ha) (broadcastTo ⟨2, ![R, K]⟩ (shapeCast ⟨2, ![R, 1]⟩ s hs) hb) = scaleRows a s := by
  funext i
  obtain ⟨p, k, rfl⟩ : ∃ (p : Fin R) (k : Fin K), i = ix2 p k := ⟨i 0, i 1, eq_ix2 i⟩
  show (shapeCast ⟨2, ![R, K]⟩ a ha (ix2 p k) : EReal) * broadcastTo ⟨2, ![R, K]⟩ (shapeCast ⟨2, ![R, 1]⟩ s hs) hb (ix2 p k) = _
  rw [shapeCast_self, shapeCast_self, broadcastTo_a1_ab_apply]
  rfl

/-- On the host: the array divided by the vector `D` broadcast to a column and then along the rows is the array scaled
    by the column of reciprocals `one / D`, when `one` is 1 everywhere and `D` is nowhere zero. -/
theorem hmean {R K : ℕ} (a : FVec Ideal ⟨2, ![R, K]⟩ .f32) (one D : FVec Ideal ⟨1, ![R]⟩ .f32)
    (h1 : (⟨1, ![R]⟩ : Shape).BroadcastsInDim ⟨2, ![R, 1]⟩ ![0]) (h2 : (⟨2, ![R, 1]⟩ : Shape).BroadcastsInDim ⟨2, ![R, K]⟩ ![0, 1])
    (hc : (⟨1, ![R]⟩ : Shape).ShapeCasts ⟨2, ![R, 1]⟩) (hone : ∀ i, one i = 1) (hD : ∀ i, D i ≠ 0) :
    Host.divf a (broadcastInDim ⟨2, ![R, K]⟩ ![0, 1] h2 (broadcastInDim ⟨2, ![R, 1]⟩ ![0] h1 D))
      = scaleRows a (shapeCast ⟨2, ![R, 1]⟩ (Host.divf one D) hc) := by
  funext i
  obtain ⟨p, k, rfl⟩ : ∃ (p : Fin R) (k : Fin K), i = ix2 p k := ⟨i 0, i 1, eq_ix2 i⟩
  rw [scaleRows_apply, shapeCast_a_a1_apply]
  show Ideal.div (a (ix2 p k)) (broadcastInDim ⟨2, ![R, K]⟩ ![0, 1] h2 (broadcastInDim ⟨2, ![R, 1]⟩ ![0] h1 D) (ix2 p k))
      = a (ix2 p k) * Ideal.div (one (ix1 p)) (D (ix1 p))
  rw [bcast_a1_ab_apply, bcast_a_a1_apply, hone, mul_one_div (hD (ix1 p))]

end Cert.MeanScale

end
-- ==== Proof.LibScatterRows.lean ====
/-
  THE ROW SCATTER READ AT AN INDEX, at the ideal (extended-real) values.

  For the dimension numbers of a segment sum over an index column (`Cert.RowIndex.rowScatterDims`: operand `[N, C]`,
  scatter indices `[E, 1]`, updates `[E, C]`; update `(e, c')` goes to row `idx[e, 0]`, read signed and not clamped, and
  column `c'`, and is dropped when that row is outside `[0, N)`):
  • `rowScatter_resultIdx_iff`: update `(e, c')` lands at operand index `(n, c)` exactly when `idx[e, 0]`, read signed,
    is `n` and `c' = c` (the converse of `rowScatter_lands` together with it);
  • `rowScatter_apply`: the accumulating scatter read at `(n, c)` is the operand there plus the sum over ALL the edges `e`
    of the update `(e, c)` where `idx[e, 0] = n` and of `0` elsewhere;
  • `rowScatterGather_apply`: the same when the updates are the rows of an array `z` gathered at a second index column
    (a message-passing hop): the update `(e, c)` is `z` at the clamped row `sidx[e, 0]` and column `c`.
-/
import Idealize.ShloMosaic.PureOps.Ideal
import Idealize.ShloMosaic.Lib.ValueIdx
import proofs.«171537_j82300163326282_2_alg».proof.Proof.LibRowIndex

noncomputable section

open scoped BigOperators

namespace Cert.ScatterRows

open Idealize.ShloMosaic Idealize.ShloMosaic.ValueIdx Cert.RowIndex

/-- Update `(e, c')` lands at `(n, c)` exactly when its row index, read signed, is `n` and its column is `c`. -/
theorem rowScatter_resultIdx_iff {N E C w : Nat}
    (wf : ScatterDims.WF ⟨2, ![N, C]⟩ ⟨2, ![E, 1]⟩ ⟨2, ![E, C]⟩ [1] [0] [0] 1)
    (idx : IVec ⟨2, ![E, 1]⟩ w) (e : Fin E) (c' : Fin C) (n : Fin N) (c : Fin C) :
    (rowScatterDims N E C wf).resultIdx? (ix2 e c') idx = some (ix2 n c)
      ↔ (idx (ix2 e (0 : Fin 1))).toInt = (n.val : Int) ∧ c' = c := by
  constructor
  · intro h
    obtain ⟨h0, h1⟩ := rowScatter_lands wf idx e c' (ix2 n c) h
    exact ⟨h0, Fin.ext h1.symm⟩
  · rintro ⟨h0, rfl⟩
    have hc : ∀ a : Fin 2,
        0 ≤ (rowScatterDims N E C wf).start (ix2 e c') idx a + ((rowScatterDims N E C wf).window (ix2 e c') a : Nat)
        ∧ (rowScatterDims N E C wf).start (ix2 e c') idx a + ((rowScatterDims N E C wf).window (ix2 e c') a : Nat)
            < ((⟨2, ![N, C]⟩ : Shape).size a : Nat) := by
      intro a
      match a with
      | ⟨0, _⟩ =>
        show 0 ≤ (rowScatterDims N E C wf).start (ix2 e c') idx 0 + ((rowScatterDims N E C wf).window (ix2 e c') 0 : Nat)
          ∧ (rowScatterDims N E C wf).start (ix2 e c') idx 0 + ((rowScatterDims N E C wf).window (ix2 e c') 0 : Nat) < (N : Int)
        rw [rowScatter_start0, rowScatter_window0, h0]
        have := n.isLt
        omega
      | ⟨1, _⟩ =>
        show 0 ≤ (rowScatterDims N E C wf).start (ix2 e c') idx 1 + ((rowScatterDims N E C wf).window (ix2 e c') 1 : Nat)
          ∧ (rowScatterDims N E C wf).start (ix2 e c') idx 1 + ((rowScatterDims N E C wf).window (ix2 e c') 1 : Nat) < (C : Int)
        rw [rowScatter_start1, rowScatter_window1]
        have := c'.isLt
        omega
    unfold ScatterDims.resultIdx?
    rw [dif_pos hc]
    congr 1
    funext a
    refine Fin.ext ?_
    match a with
    | ⟨0, _⟩ =>
      show ((rowScatterDims N E C wf).start (ix2 e c') idx 0 + ((rowScatterDims N E C wf).window (ix2 e c') 0 : Nat)).toNat = n.val
      rw [rowScatter_start0, rowScatter_window0, h0]
      omega
    | ⟨1, _⟩ =>
      show ((rowScatterDims N E C wf).start (ix2 e c') idx 1 + ((rowScatterDims N E C wf).window (ix2 e c') 1 : Nat)).toNat = c'.val
      rw [rowScatter_start1, rowScatter_window1]
      omega

/-- THE ROW SCATTER READ AT `(n, c)`: the operand there plus the updates `(e, c)` of the edges `e` whose row index is `n`. -/
theorem rowScatter_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (u : (⟨2, ![E, C]⟩ : Shape).Idx → EReal) (n : Fin N) (c : Fin C) :
    Ideal.hostScatterAdd (rowScatterDims N E C wf) x idx u (ix2 n c)
      = x (ix2 n c)
        + ∑ e : Fin E, if (idx (ix2 e (0 : Fin 1))).toInt = (n.val : Int) then u (ix2 e c) else 0 := by
  unfold Ideal.hostScatterAdd
  congr 1
  rw [Finset.sum_filter, sum_idx2]
  refine Finset.sum_congr rfl fun e _ => ?_
  simp only [rowScatter_resultIdx_iff]
  by_cases h : (idx (ix2 e (0 : Fin 1))).toInt = (n.val : Int)
  · simp only [h, true_and]
    rw [Finset.sum_ite_eq' Finset.univ c (fun c' => u (ix2 e c'))]
    simp
  · simp [h]

/-- A HOP READ AT `(n, c)`: rows of `z` gathered at the column `sidx` and summed per row of the column `idx`. -/
theorem rowScatterGather_apply {N E C w w' : Nat} (hN : 0 < N)
    (wfS : ScatterDims.WF ⟨2, ![N, C]⟩ ⟨2, ![E, 1]⟩ ⟨2, ![E, C]⟩ [1] [0] [0] 1)
    (wfG : GatherDims.WF ⟨2, ![N, C]⟩ ⟨2, ![E, 1]⟩ ⟨2, ![E, C]⟩ [1] [0] [] [0] [] 1 ![1, C])
    (x : (⟨2, ![N, C]⟩ : Shape).Idx → EReal) (idx : IVec ⟨2, ![E, 1]⟩ w) (sidx : IVec ⟨2, ![E, 1]⟩ w')
    (z : (⟨2, ![N, C]⟩ : Shape).Idx → EReal) (n : Fin N) (c : Fin C) :
    Ideal.hostScatterAdd (rowScatterDims N E C wfS) x idx (Host.gather (rowGatherDims N E C wfG) z sidx) (ix2 n c)
      = x (ix2 n c)
        + ∑ e : Fin E, if (idx (ix2 e (0 : Fin 1))).toInt = (n.val : Int)
            then z (ix2 ⟨min (sidx (ix2 e (0 : Fin 1))).toInt.toNat (N - 1), by omega⟩ c) else 0 := by
  rw [rowScatter_apply]
  congr 1
  refine Finset.sum_congr rfl fun e _ => ?_
  rw [rowGather_apply hN]

end Cert.ScatterRows

end
-- ==== Proof.LibCoreLaw.lean ====
/-
  AGGREGATE THEN PROJECT = PROJECT THEN AGGREGATE, for a mean over the edges landing on one node, on real-valued data.

  Fix a node and an output column.  Over the edges `e` (those with `p e` land on the node), the contracted axis `k`, the
  gathered rows `a e k`, the weight column `W k` and the node's divisor `m` (nonzero):
      sum over k of ((0 + sum over the landing e of a e k) / m) * W k
        = (0 + sum over the landing e of (sum over k of a e k * W k)) * (1 / m).
  • `coe_sum`: the embedding of the reals in the extended reals commutes with a finite sum;
  • `core_real`: the identity in the reals (exchange the two sums, distribute the factor);
  • `core`: the identity on the extended reals with their division `Ideal.div`, for entries that are all REAL and a real
    nonzero divisor.  (On the extended reals themselves it fails: products do not distribute over sums with infinities.)
-/
import Idealize.ShloMosaic.PureOps.Ideal
import Idealize.ShloMosaic.PureOps.Ideal.Laws
import proofs.«171537_j82300163326282_2_alg».proof.Proof.LibFinite

noncomputable section

open scoped BigOperators

namespace Cert.CoreLaw

open Idealize.ShloMosaic Cert.Finite

/-- The embedding of the reals commutes with a finite sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The two aggregation orders agree in the reals. -/
theorem core_real {E D : Nat} (p : Fin E → Prop) [DecidablePred p] (a : Fin E → Fin D → ℝ) (W : Fin D → ℝ) (m : ℝ) :
    ∑ k, (0 + ∑ e, if p e then a e k else 0) * (1 / m) * W k
      = (0 + ∑ e, if p e then ∑ k, a e k * W k else 0) * (1 * (1 / m)) := by
  have hg : ∀ e, (if p e then ∑ k, a e k * W k else 0) = ∑ k, (if p e then a e k else 0) * W k := by
    intro e
    split_ifs <;> simp
  simp only [hg, zero_add, one_mul, Finset.sum_mul]
  rw [Finset.sum_comm]
  refine Finset.sum_congr rfl fun e _ => Finset.sum_congr rfl fun k _ => ?_
  ring

/-- The two aggregation orders agree on the extended reals when every entry is a real and the divisor a nonzero real. -/
theorem core {E D : Nat} (p : Fin E → Prop) [DecidablePred p] (a : Fin E → Fin D → EReal) (W : Fin D → EReal) (m : EReal)
    (ha : ∀ e k, IsReal (a e k)) (hW : ∀ k, IsReal (W k)) (hm : IsReal m) (hm0 : m ≠ 0) :
    ∑ k, Ideal.div (0 + ∑ e, if p e then a e k else 0) m * W k
      = (0 + ∑ e, if p e then ∑ k, a e k * W k else 0) * Ideal.div 1 m := by
  choose a' ha' using ha
  choose W' hW' using hW
  obtain ⟨m', rfl⟩ := hm
  have hm' : m' ≠ 0 := by
    rintro rfl
    exact hm0 EReal.coe_zero
  have e1 : ∀ k, Ideal.div (0 + ∑ e, if p e then a e k else 0) (m' : EReal) * W k
      = (((0 + ∑ e, if p e then a' e k else 0) * (1 / m') * W' k : ℝ) : EReal) := by
    intro k
    have h1 : (0 + ∑ e, if p e then a e k else 0 : EReal) = ((0 + ∑ e, if p e then a' e k else 0 : ℝ) : EReal) := by
      rw [EReal.coe_add, EReal.coe_zero, coe_sum]
      congr 1
      refine Finset.sum_congr rfl fun e _ => ?_
      rw [ha' e k]
      split_ifs <;> simp
    rw [Ideal.div_coe hm', hW' k, h1, ← EReal.coe_mul, ← EReal.coe_mul]
  have e2 : (0 + ∑ e, if p e then ∑ k, a e k * W k else 0) * Ideal.div 1 (m' : EReal)
      = (((0 + ∑ e, if p e then ∑ k, a' e k * W' k else 0) * (1 * (1 / m')) : ℝ) : EReal) := by
    have h2 : (0 + ∑ e, if p e then ∑ k, a e k * W k else 0 : EReal)
        = ((0 + ∑ e, if p e then ∑ k, a' e k * W' k else 0 : ℝ) : EReal) := by
      rw [EReal.coe_add, EReal.coe_zero, coe_sum]
      congr 1
      refine Finset.sum_congr rfl fun e _ => ?_
      split_ifs
      · rw [coe_sum]
        refine Finset.sum_congr rfl fun k _ => ?_
        rw [ha' e k, hW' k, EReal.coe_mul]
      · simp
    rw [Ideal.div_coe hm', h2, ← EReal.coe_one, ← EReal.coe_mul, ← EReal.coe_mul]
  simp only [e1]
  rw [e2, ← coe_sum, core_real]

end Cert.CoreLaw

end
-- ==== Proof.LibHopExchange.lean ====
/-
  A MEAN-AGGREGATING HOP COMMUTES WITH A PROJECTION, read at an index, for generic sizes.

  A hop gathers the rows of an array at a source index column and sums them per row of a destination index column (an
  accumulating row scatter into a zero array; `Cert.RowIndex.rowScatterDims` / `rowGatherDims`).  For an array `h : [N, D]`
  of REAL entries, a real weight column `Wc : [D]`, the array `z : [N, C]` whose column `c` is `h` times `Wc`, and a real
  nonzero divisor `m`:
      sum over k of (hop h (n, k) / m) * Wc k  =  hop z (n, c) * (1 / m)          (`exchange`)
  — dividing the aggregated features and then projecting is projecting, aggregating and scaling by the reciprocal.
  `hop_real`: a hop of real entries into a real array is real.
-/
import Idealize.ShloMosaic.PureOps.Ideal
import Idealize.ShloMosaic.Lib.ValueIdx
import proofs.«171537_j82300163326282_2_alg».proof.Proof.LibRowIndex
import proofs.«171537_j82300163326282_2_alg».proof.Proof.LibFinite
import proofs.«171537_j82300163326282_2_alg».proof.Proof.LibScatterRows
import proofs.«171537_j82300163326282_2_alg».proof.Proof.LibCoreLaw

noncomputable section

open scoped BigOperators

namespace Cert.HopExchange

open Idealize.ShloMosaic Idealize.ShloMosaic.ValueIdx Cert.RowIndex Cert.ScatterRows Cert.Finite

/-- Aggregate, divide, project = project, aggregate, scale by the reciprocal. -/
theorem exchange {N E D C w w' : Nat} (hN : 0 < N)
    (wfS1 : ScatterDims.WF ⟨2, ![N, D]⟩ ⟨2, ![E, 1]⟩ ⟨2, ![E, D]⟩ [1] [0] [0] 1)
    (wfG1 : GatherDims.WF ⟨2, ![N, D]⟩ ⟨2, ![E, 1]⟩ ⟨2, ![E, D]⟩ [1] [0] [] [0] [] 1 ![1, D])
    (wfS2 : ScatterDims.WF ⟨2, ![N, C]⟩ ⟨2, ![E, 1]⟩ ⟨2, ![E, C]⟩ [1] [0] [0] 1)
    (wfG2 : GatherDims.WF ⟨2, ![N, C]⟩ ⟨2, ![E, 1]⟩ ⟨2, ![E, C]⟩ [1] [0] [] [0] [] 1 ![1, C])
    (x1 : (⟨2, ![N, D]⟩ : Shape).Idx → EReal) (x2 : (⟨2, ![N, C]⟩ : Shape).Idx → EReal)
    (hx1 : ∀ i, x1 i = 0) (hx2 : ∀ i, x2 i = 0)
    (idx : IVec ⟨2, ![E, 1]⟩ w) (sidx : IVec ⟨2, ![E, 1]⟩ w')
    (h : (⟨2, ![N, D]⟩ : Shape).Idx → EReal) (z : (⟨2, ![N, C]⟩ : Shape).Idx → EReal) (Wc : Fin D → EReal) (c : Fin C)
    (hz : ∀ r : Fin N, z (ix2 r c) = ∑ k : Fin D, h (ix2 r k) * Wc k)
    (m : EReal) (hh : ∀ i, IsReal (h i)) (hW : ∀ k, IsReal (Wc k)) (hm : IsReal m) (hm0 : m ≠ 0) (n : Fin N) :
    ∑ k : Fin D, Ideal.div (Ideal.hostScatterAdd (rowScatterDims N E D wfS1) x1 idx
        (Host.gather (rowGatherDims N E D wfG1) h sidx) (ix2 n k)) m * Wc k
      = Ideal.hostScatterAdd (rowScatterDims N E C wfS2) x2 idx
          (Host.gather (rowGatherDims N E C wfG2) z sidx) (ix2 n c) * Ideal.div 1 m := by
  simp only [rowScatterGather_apply hN, hx1, hx2, hz]
  exact Cert.CoreLaw.core (fun e => (idx (ix2 e (0 : Fin 1))).toInt = (n.val : Int))
    (fun e k => h (ix2 ⟨min (sidx (ix2 e (0 : Fin 1))).toInt.toNat (N - 1), by omega⟩ k)) Wc m
    (fun e k => hh _) hW hm hm0

/-- A hop of real entries into a real array is real. -/
theorem hop_real {N E C w w' : Nat}
    (wfS : ScatterDims.WF ⟨2, ![N, C]⟩ ⟨2, ![E, 1]⟩ ⟨2, ![E, C]⟩ [1] [0] [0] 1)
    (wfG : GatherDims.WF ⟨2, ![N, C]⟩ ⟨2, ![E, 1]⟩ ⟨2, ![E, C]⟩ [1] [0] [] [0] [] 1 ![1, C])
    (x : (⟨2, ![N, C]⟩ : Shape).Idx → EReal) (idx : IVec ⟨2, ![E, 1]⟩ w) (sidx : IVec ⟨2, ![E, 1]⟩ w')
    (z : (⟨2, ![N, C]⟩ : Shape).Idx → EReal) (hx : ∀ i, IsReal (x i)) (hzr : ∀ i, IsReal (z i)) (i : (⟨2, ![N, C]⟩ : Shape).Idx) :
    IsReal (Ideal.hostScatterAdd (rowScatterDims N E C wfS) x idx (Host.gather (rowGatherDims N E C wfG) z sidx) i) :=
  isReal_scatterAdd _ x idx _ hx (fun _ => hzr _) i

end Cert.HopExchange

end
-- ==== Proof.LayerLaw.lean ====
/-
  THE LAW OF ONE LAYER: aggregating the neighbours' features and then projecting (the reference's order) equals projecting
  and then aggregating (the kernel's order), for a mean-aggregating layer on REAL-valued data.

  At node n and column c, with E_n the edges whose destination is n, s_e the (wrapped, clamped) source row of edge e and
  m_n = max (count n, 1):
    reference:  act ( sum_k ((0 + sum_{e in E_n} h[s_e,k]) / m_n) * Wl[k,c]  +  b[c]  +  sum_k h[n,k] * Wr[k,c] )
    kernel:     act ( (0 + sum_{e in E_n} sum_k h[s_e,k] * Wl[k,c]) * (1 / m_n)  +  b[c]  +  sum_k h[n,k] * Wr[k,c] ).
  Both programs build the edge columns and the count by the same operations, so those are the same arrays, and each
  aggregate is a hop (rows gathered at the source column, summed per row of the destination column); the exchange of the
  two sums is the hop law for real entries and a real nonzero divisor; the bias and the root term are read directly.
  The arrays are unfolded as whole functions and rewritten, never compared at an index by unfolding.
  The layer's output is again real-valued: the rectifier returns its argument or one half of it.
-/
import proofs.«171537_j82300163326282_2_alg».proof.Proof.Gen.ReferenceIdeal.Read
import proofs.«171537_j82300163326282_2_alg».proof.Proof.KSpec
import proofs.«171537_j82300163326282_2_alg».proof.Proof.LibRowIndex
import proofs.«171537_j82300163326282_2_alg».proof.Proof.LibFinite
import proofs.«171537_j82300163326282_2_alg».proof.Proof.LibMeanScale
import proofs.«171537_j82300163326282_2_alg».proof.Proof.LibHopExchange
import Idealize.ShloMosaic.Lib.Pipeline.Value

noncomputable section

open scoped BigOperators

namespace Cert.LayerLaw

open Idealize.ShloMosaic Idealize.ShloMosaic.ValueIdx
open Cert.KernelIdeal Cert.KernelIdeal.Facts₀ Cert.KernelIdeal.KSpec Cert.Sage
open Cert.RowIndex Cert.Finite
open Cert.ReferenceIdeal.Read

/-! ## The graph data at an index -/

/-- The count is a real at every node: a sum of ones. -/
theorem cnt_real (ei : IVec S2x800000 32) : AllReal (cnt ei) := by
  unfold cnt
  exact AllReal.scatterAdd (allReal_zeros _ _)
    (fun i => ⟨1, by rw [Cert.MeanScale.bcast_const_apply, Cert.MeanScale.ofBits_one]; rfl⟩) _ _

/-- The node's divisor is a real. -/
theorem m_real (ei : IVec S2x800000 32) (n : Fin 50000) : IsReal (max (cnt ei (ix1 n)) 1) :=
  (cnt_real ei (ix1 n)).max ⟨1, rfl⟩

/-- The host's quotient of two arrays at an index. -/
theorem hostDivf_read {s : Shape} (a b : FVec Ideal s .f32) (i : s.Idx) :
    Host.divf (F := Ideal) a b i = Ideal.div (a i) (b i) := rfl

/-- The reciprocal column at node n. -/
theorem inv_read (ei : IVec S2x800000 32) (n : Fin 50000) :
    KSpec.inv ei (ix2 n (0 : Fin 1)) = Ideal.div 1 (max (cnt ei (ix1 n)) 1) := by
  unfold KSpec.inv
  rw [Cert.MeanScale.shapeCast_a_a1_apply, hostDivf_read, maximumf_apply, Cert.MeanScale.bcast_const_apply,
    Cert.MeanScale.ofBits_one]

/-- The reference's divisor, broadcast along the row, at (n, k). -/
theorem ref_m (ei : IVec S2x800000 32) (n : Fin 50000) (k : Fin 256) :
    val_main_v21 (F := Ideal) ei (ix2 n k) = max (cnt ei (ix1 n)) 1 := by
  rw [val_main_v21_apply, val_main_v20_apply, val_main_v19_apply, val_main_v18_apply, val_main_cst_3_apply]
  have hi : idx_main_v20 (idx_main_v21 (ix2 n k)) = ix1 n := funext fun a => match a with | ⟨0, _⟩ => rfl
  rw [hi]
  show max (cnt ei (ix1 n)) (Ideal.ofBits .f32 0x3F800000#32) = _
  rw [Cert.MeanScale.ofBits_one]

/-! ## The two aggregates as hops (whole arrays) -/

/-- The reference's aggregate is the hop of the features along the kernel's own edge columns. -/
theorem v13_fn (h : FVec Ideal S50000x256 .f32) (ei : IVec S2x800000 32) :
    val_main_v13 (F := Ideal) h ei
      = Ideal.hostScatterAdd
          (rowScatterDims 50000 800000 256 Cert.ReferenceIdeal.Facts₀.scatter_S50000x256_S800000x1_S800000x256_1_0_0_1_wf)
          (val_main_v11 (F := Ideal)) (dcol ei)
          (Host.gather (rowGatherDims 50000 800000 256 Cert.ReferenceIdeal.Facts₀.gather_S50000x256_S800000x1_S800000x256_1_0_n_n_0_1_1256_wf) h (scol ei)) := rfl

/-- The kernel's aggregate is the hop of z. -/
theorem aggK_fn (ei : IVec S2x800000 32) (z : FVec Ideal S50000x256 .bf16) :
    aggK ei z
      = Ideal.hostScatterAdd
          (rowScatterDims 50000 800000 256 scatter_S50000x256_S800000x1_S800000x256_1_0_0_1_wf)
          (broadcastInDim S50000x256 ![] bcast_S_S50000x256 (constant (F := Ideal) S_ .f32 0x00000000#32)) (dcol ei)
          (Host.gather (rowGatherDims 50000 800000 256 gather_S50000x256_S800000x1_S800000x256_1_0_n_n_0_1_1256_wf) z (scol ei)) := rfl

/-- The reference's zero array. -/
theorem v11_zero (i : S50000x256.Idx) : val_main_v11 (F := Ideal) i = 0 := by
  rw [val_main_v11_apply, val_main_cst_apply]
  exact Ideal.ofBits_zero_f32

/-- The kernel's zero array. -/
theorem kzero (i : S50000x256.Idx) :
    broadcastInDim S50000x256 ![] bcast_S_S50000x256 (constant (F := Ideal) S_ .f32 0x00000000#32) i = 0 := by
  rw [Cert.MeanScale.bcast_const_apply, Ideal.ofBits_zero_f32]

/-! ## The weight pair, the bias row -/

/-- The left half of the weight pair. -/
theorem wcatL (Wl Wr : FVec Ideal S256x256 .f32) (k c : Fin 256) : wcat Wl Wr (ix2 k (colL c)) = Wl (ix2 k c) := by
  unfold wcat
  exact concatenate_pair_apply_left 1 Wl Wr concatenates_S256x256_S256x256_S256x512_d1 (ix2 k (colL c)) rfl (ix2 k c)
    (fun b => match b with | ⟨0, _⟩ => rfl | ⟨1, _⟩ => rfl)

/-- The right half of the weight pair. -/
theorem wcatR (Wl Wr : FVec Ideal S256x256 .f32) (k c : Fin 256) : wcat Wl Wr (ix2 k (colR c)) = Wr (ix2 k c) := by
  unfold wcat
  exact concatenate_pair_apply_right 1 Wl Wr concatenates_S256x256_S256x256_S256x512_d1 (ix2 k (colR c)) rfl rfl (ix2 k c)
    (fun b => match b with
      | ⟨0, _⟩ => fun _ => rfl
      | ⟨1, _⟩ => fun hb => absurd rfl hb)
    (by show c.val + 256 = 256 + c.val; omega)

/-- The bias row at column c. -/
theorem brow_read (b : FVec Ideal S256 .f32) (c : Fin 256) : brow b (ix2 (0 : Fin 1) c) = b (ix1 c) := by
  unfold brow
  exact shapeCast_apply b shapeCasts_S256_S1x256 _ _
    (by rw [Shape.rowMajor_val_two, Shape.rowMajor_val_one]; show c.val = 0 * 256 + c.val; omega)

/-- The left projection's column c is the features times the left weights' column c. -/
theorem projL_col (h : FVec Ideal S50000x256 .f32) (Wl Wr : FVec Ideal S256x256 .f32) (c : Fin 256) (r : Fin 50000) :
    projL h (wcat Wl Wr) (ix2 r c) = ∑ k : Fin 256, h (ix2 r k) * (fun k => Wl (ix2 k c)) k := by
  rw [projL_apply]
  refine Finset.sum_congr rfl fun k _ => ?_
  rw [wcatL]

/-- The left projection of real features by real weights is real. -/
theorem projL_real (h : FVec Ideal S50000x256 .f32) (Wl Wr : FVec Ideal S256x256 .f32) (hh : AllReal h) (hWl : AllReal Wl)
    (i : SNxD.Idx) : IsReal (projL h (wcat Wl Wr) i) := by
  obtain ⟨r, c, rfl⟩ : ∃ (r : Fin 50000) (c : Fin 256), i = ix2 r c := ⟨i 0, i 1, eq_ix2 i⟩
  rw [projL_col]
  exact isReal_sum _ _ fun k _ => (hh _).mul (hWl _)

/-! ## The three terms of the pre-activation -/

theorem lidx23 (n : Fin 50000) (c k : Fin 256) : lidx_main_v23 (ix2 n c) k = ix2 n k :=
  funext fun a => match a with | ⟨0, _⟩ => rfl | ⟨1, _⟩ => rfl
theorem ridx23 (n : Fin 50000) (c k : Fin 256) : ridx_main_v23 (ix2 n c) k = ix2 k c :=
  funext fun a => match a with | ⟨0, _⟩ => rfl | ⟨1, _⟩ => rfl
theorem lidx27 (n : Fin 50000) (c k : Fin 256) : lidx_main_v27 (ix2 n c) k = ix2 n k :=
  funext fun a => match a with | ⟨0, _⟩ => rfl | ⟨1, _⟩ => rfl
theorem ridx27 (n : Fin 50000) (c k : Fin 256) : ridx_main_v27 (ix2 n c) k = ix2 k c :=
  funext fun a => match a with | ⟨0, _⟩ => rfl | ⟨1, _⟩ => rfl

/-- One summand of the reference's aggregated term. -/
theorem ref_term (h : FVec Ideal S50000x256 .f32) (ei : IVec S2x800000 32) (Wl : FVec Ideal S256x256 .f32)
    (n : Fin 50000) (c k : Fin 256) :
    val_main_v22 (F := Ideal) h ei (lidx_main_v23 (ix2 n c) k) * Wl (ridx_main_v23 (ix2 n c) k)
      = Ideal.div (Ideal.hostScatterAdd
          (rowScatterDims 50000 800000 256 Cert.ReferenceIdeal.Facts₀.scatter_S50000x256_S800000x1_S800000x256_1_0_0_1_wf)
          (val_main_v11 (F := Ideal)) (dcol ei)
          (Host.gather (rowGatherDims 50000 800000 256 Cert.ReferenceIdeal.Facts₀.gather_S50000x256_S800000x1_S800000x256_1_0_n_n_0_1_1256_wf) h (scol ei)) (ix2 n k))
          (max (cnt ei (ix1 n)) 1) * (fun k => Wl (ix2 k c)) k := by
  rw [lidx23, ridx23, val_main_v22_apply, Ideal.hostDivf_def, v13_fn, ref_m]

/-- The aggregated term: mean of the neighbours then the projection = the projection then the scaled sum. -/
theorem agg_eq (h : FVec Ideal S50000x256 .f32) (ei : IVec S2x800000 32) (Wl Wr : FVec Ideal S256x256 .f32)
    (hh : AllReal h) (hWl : AllReal Wl) (n : Fin 50000) (c : Fin 256) :
    val_main_v23 (F := Ideal) h ei Wl (ix2 n c)
      = aggK ei (projL h (wcat Wl Wr)) (ix2 n c) * KSpec.inv ei (ix2 n (0 : Fin 1)) := by
  rw [val_main_v23_apply, Finset.sum_congr rfl fun k _ => ref_term h ei Wl n c k, aggK_fn, inv_read]
  exact Cert.HopExchange.exchange (by decide) _ _ _ _ _ _ v11_zero kzero (dcol ei) (scol ei) h (projL h (wcat Wl Wr))
    (fun k => Wl (ix2 k c)) c (projL_col h Wl Wr c) (max (cnt ei (ix1 n)) 1) hh (fun k => hWl _) (m_real ei n)
    (Cert.MeanScale.max_one_ne_zero _) n

/-- The bias term. -/
theorem bias_eq (b : FVec Ideal S256 .f32) (n : Fin 50000) (c : Fin 256) :
    val_main_v25 (F := Ideal) b (ix2 n c) = brow b (ix2 (0 : Fin 1) c) := by
  rw [val_main_v25_apply, val_main_v24_apply, brow_read]
  have hi : idx_main_v24 (idx_main_v25 (ix2 n c)) = ix1 c := funext fun a => match a with | ⟨0, _⟩ => rfl
  rw [hi]

/-- The root term. -/
theorem root_eq (h : FVec Ideal S50000x256 .f32) (Wl Wr : FVec Ideal S256x256 .f32) (n : Fin 50000) (c : Fin 256) :
    val_main_v27 (F := Ideal) h Wr (ix2 n c) = projR h (wcat Wl Wr) (ix2 n c) := by
  rw [val_main_v27_apply, projR_apply]
  refine Finset.sum_congr rfl fun k _ => ?_
  rw [lidx27, ridx27, wcatR]

/-! ## The layer -/

/-- The reference's comparison, product and selection on three summands are the rectifier of their sum. -/
theorem act_read (x y z : EReal) :
    Scalar.select
        (FloatOps.cmpf (F := Ideal) (φ := .f32) .oge (FloatOps.addf (F := Ideal) (φ := .f32) (FloatOps.addf (F := Ideal) (φ := .f32) x y) z)
          (FloatOps.ofBits (F := Ideal) .f32 0x00000000#32))
        (FloatOps.addf (F := Ideal) (φ := .f32) (FloatOps.addf (F := Ideal) (φ := .f32) x y) z)
        (FloatOps.mulf (F := Ideal) (φ := .f32) (FloatOps.ofBits (F := Ideal) .f32 0x3F000000#32)
          (FloatOps.addf (F := Ideal) (φ := .f32) (FloatOps.addf (F := Ideal) (φ := .f32) x y) z))
      = act (x + y + z) := rfl

/-- THE LAW OF ONE LAYER. -/
theorem layer_eq (h : FVec Ideal S50000x256 .f32) (ei : IVec S2x800000 32) (Wl : FVec Ideal S256x256 .f32)
    (b : FVec Ideal S256 .f32) (Wr : FVec Ideal S256x256 .f32)
    (hh : AllReal h) (hWl : AllReal Wl) (hb : AllReal b) (hWr : AllReal Wr) :
    val_main_v33 (F := Ideal) h ei Wl b Wr = KL h ei Wl b Wr := by
  funext i
  obtain ⟨n, c, rfl⟩ : ∃ (n : Fin 50000) (c : Fin 256), i = ix2 n c := ⟨i 0, i 1, eq_ix2 i⟩
  rw [val_main_v33_apply, val_main_v30_apply, val_main_v32_apply, val_main_v31_apply, val_main_cst_5_apply,
    val_main_v29_apply, val_main_cst_4_apply, val_main_v28_apply, val_main_v26_apply, act_read,
    agg_eq h ei Wl Wr hh hWl n c, bias_eq b n c, root_eq h Wl Wr n c]
  unfold KL
  rw [epi_apply]

/-- One half, the rectifier's slope, is a real. -/
theorem half_real : IsReal (Ideal.ofBits .f32 0x3F000000#32) := by
  refine ⟨(1 / 2 : ℝ), ?_⟩
  simp [Ideal.ofBits, Ideal.ieee, -EReal.coe_mul]
  norm_num

/-- The rectifier of a real is a real. -/
theorem act_real {t : EReal} (ht : IsReal t) : IsReal (act t) := by
  unfold act Scalar.select
  split
  · exact ht
  · exact half_real.mul ht

/-- The layer's output is real-valued. -/
theorem layer_real (h : FVec Ideal S50000x256 .f32) (ei : IVec S2x800000 32) (Wl : FVec Ideal S256x256 .f32)
    (b : FVec Ideal S256 .f32) (Wr : FVec Ideal S256x256 .f32)
    (hh : AllReal h) (hWl : AllReal Wl) (hb : AllReal b) (hWr : AllReal Wr) :
    AllReal (KL h ei Wl b Wr) := by
  intro i
  obtain ⟨n, c, rfl⟩ : ∃ (n : Fin 50000) (c : Fin 256), i = ix2 n c := ⟨i 0, i 1, eq_ix2 i⟩
  unfold KL
  rw [epi_apply]
  refine act_real (((IsReal.mul ?_ ?_).add ?_).add ?_)
  · rw [aggK_fn]
    exact Cert.HopExchange.hop_real _ _ _ (dcol ei) (scol ei) _ (fun i => by rw [kzero]; exact isReal_zero)
      (projL_real h Wl Wr hh hWl) _
  · rw [inv_read]
    obtain ⟨m, hm⟩ := m_real ei n
    have hm0 : m ≠ 0 := by
      rintro rfl
      exact Cert.MeanScale.max_one_ne_zero (cnt ei (ix1 n)) (hm.trans EReal.coe_zero)
    rw [hm, Ideal.div_coe hm0]
    exact IsReal.mul (x := 1) ⟨1, rfl⟩ ⟨_, rfl⟩
  · rw [brow_read]
    exact hb _
  · rw [projR_apply]
    exact isReal_sum _ _ fun k _ => (hh _).mul (by rw [wcatR]; exact hWr _)

end Cert.LayerLaw

end
-- ==== Proof.lean ====
/-
  Two layers of a mean-aggregating graph network with a leaky rectifier, kernel against reference, on the extended reals.

  Per layer the reference sums the neighbours' feature rows per destination node, divides by the number of incoming
  edges raised to at least one, and multiplies by the neighbour weights:  act ((agg h / max (cnt, 1)) · Wl + b + h · Wr).
  The kernel multiplies by the weights FIRST — one product with the pair [Wl | Wr] gives h · Wl and h · Wr —, then sums
  the rows of h · Wl per destination and scales by 1 / max (cnt, 1):  act (agg (h · Wl) · (1 / max (cnt, 1)) + b + h · Wr).
  The two agree because summing rows commutes with a matrix product and with a scale, which holds on the extended reals
  when every entry is a real: the inputs are real by the precondition, the count is a finite sum of ones, so its floor at
  one is a nonzero real, and each layer's output is again real.  Narrowing to bfloat16 and widening back is the identity.

  The kernel runs as three regions of 25 row blocks with host stretches between them; each region's output arrays are
  read as whole-array functions of the arrays it was entered with, and the stretches are folded from the launch memory.
  The preservation claim has no conjunct: the idealization rewrote nothing.
-/
import proofs.«171537_j82300163326282_2_alg».proof.Defs
import proofs.«171537_j82300163326282_2_alg».proof.Proof.Gen.Kernel
import proofs.«171537_j82300163326282_2_alg».proof.Proof.Gen.Kernel.Skeleton
import proofs.«171537_j82300163326282_2_alg».proof.Proof.Gen.Kernel.Launch
import proofs.«171537_j82300163326282_2_alg».proof.Proof.Gen.Kernel.Points
import proofs.«171537_j82300163326282_2_alg».proof.Proof.Gen.Kernel.Frame
import proofs.«171537_j82300163326282_2_alg».proof.Proof.Gen.KernelIdeal
import proofs.«171537_j82300163326282_2_alg».proof.Proof.Gen.KernelIdeal.Skeleton
import proofs.«171537_j82300163326282_2_alg».proof.Proof.Gen.KernelIdeal.Launch
import proofs.«171537_j82300163326282_2_alg».proof.Proof.Gen.KernelIdeal.Points
import proofs.«171537_j82300163326282_2_alg».proof.Proof.Gen.KernelIdeal.Frame
import proofs.«171537_j82300163326282_2_alg».proof.Proof.Gen.ReferenceIdeal
import proofs.«171537_j82300163326282_2_alg».proof.Proof.Gen.Pre_finite_inputs
import proofs.«171537_j82300163326282_2_alg».proof.Proof.Gen.ReferenceIdeal.Run
import proofs.«171537_j82300163326282_2_alg».proof.Proof.Gen.ReferenceIdeal.Read
import proofs.«171537_j82300163326282_2_alg».proof.Proof.Assemble
import proofs.«171537_j82300163326282_2_alg».proof.Proof.RegionValue0
import proofs.«171537_j82300163326282_2_alg».proof.Proof.RegionValue1
import proofs.«171537_j82300163326282_2_alg».proof.Proof.RegionValue2
import proofs.«171537_j82300163326282_2_alg».proof.Proof.LayerLaw
import Idealize.ShloMosaic.Adequacy
import Idealize.ShloMosaic.Init

noncomputable section

namespace Cert.Proof

open Idealize.ShloMosaic Idealize.SL.Sem

/-- What the three regions leave: the two halves of the product in regions 0 and 1, the epilogue in regions 1 and 2. -/
theorem regionFacts : Cert.KernelIdeal.KValue.RegionFacts :=
  ⟨fun V c => Cert.KernelIdeal.RegionValue.final0_2 V c, fun V c => Cert.KernelIdeal.RegionValue.final0_3 V c,
   fun V c => Cert.KernelIdeal.RegionValue.final1_5 V c, fun V c => Cert.KernelIdeal.RegionValue.final1_6 V c,
   fun V c => Cert.KernelIdeal.RegionValue.final2_4 V c⟩

/-- The law of one layer on real data, with the realness of its output. -/
theorem layerLaw : Cert.Proof.Assemble.LayerLaw := fun h ei Wl b Wr hh hWl hb hWr =>
  ⟨Cert.LayerLaw.layer_eq h ei Wl b Wr hh hWl hb hWr, Cert.LayerLaw.layer_real h ei Wl b Wr hh hWl hb hWr⟩

theorem claim : Cert.Claim := ⟨Cert.Kernel.Gen.facts, Cert.KernelIdeal.Gen.facts, Cert.ReferenceIdeal.Gen.facts, Cert.Pre_finite_inputs.Gen.facts,
  Cert.Proof.Assemble.frame_k, Cert.Proof.Assemble.frame_ki, Cert.Proof.Assemble.frame_ri, trivial,
  Cert.Proof.Assemble.algebraic regionFacts layerLaw⟩

end Cert.Proof

end
